-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x8 : Shape := ⟨3, ![8, 2048, 8]⟩
abbrev S8x2048x2048 : Shape := ⟨3, ![8, 2048, 2048]⟩
abbrev S5x8x8 : Shape := ⟨3, ![5, 8, 8]⟩
abbrev S8 : Shape := ⟨1, ![8]⟩
abbrev S_ : Shape := ⟨0, ![]⟩

class Facts : Prop where
  bcast_S_S8x2048x8 : S_.BroadcastsInDim S8x2048x8 (![] : Fin 0 → Fin S8x2048x8.rank)
  reducesTo_S8x2048x8_S_d0_1_2 : S8x2048x8.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S5x8x8 : S_.BroadcastsInDim S5x8x8 (![] : Fin 0 → Fin S5x8x8.rank)
  reducesTo_S5x8x8_S_d0_1_2 : S5x8x8.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x2048x8 .f32) (main_arg1 : FVec F S8x2048x2048 .f32) (main_arg2 : FVec F S5x8x8 .f32) (main_arg3 : FVec F S8 .f32) : IVec S_ 1 :=
  let main_v0 : FVec F S8x2048x8 .f32 := Host.absf main_arg0
  let main_cst : FVec F S_ .f32 := constant S_ .f32 0x7F800000#32
  let main_v1 : FVec F S8x2048x8 .f32 := broadcastInDim S8x2048x8 ![] bcast_S_S8x2048x8 main_cst
  let main_v2 : IVec S8x2048x8 1 := cmpf .olt main_v0 main_v1
  let main_c : IVec S_ 1 := constantI S_ 1 1#1
  let main_v3 : IVec S_ 1 := (fun x v => Host.reduce IntOp.andi x v reducesTo_S8x2048x8_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S5x8x8 .f32 := Host.absf main_arg2
  let main_cst_2 : FVec F S_ .f32 := constant S_ .f32 0x7F800000#32
  let main_v10 : FVec F S5x8x8 .f32 := broadcastInDim S5x8x8 ![] bcast_S_S5x8x8 main_cst_2
  let main_v11 : IVec S5x8x8 1 := cmpf .olt main_v9 main_v10
  let main_c_3 : IVec S_ 1 := constantI S_ 1 1#1
  let main_v12 : IVec S_ 1 := (fun x v => Host.reduce IntOp.andi x v reducesTo_S5x8x8_S_d0_1_2 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S8x2048x8 : Shape := ⟨3, ![8, 2048, 8]⟩
abbrev S8x2048x2048 : Shape := ⟨3, ![8, 2048, 2048]⟩
abbrev S5x8x8 : Shape := ⟨3, ![5, 8, 8]⟩
abbrev S8 : Shape := ⟨1, ![8]⟩
abbrev S1x8 : Shape := ⟨2, ![1, 8]⟩
abbrev S1x2048x8 : Shape := ⟨3, ![1, 2048, 8]⟩
abbrev S2x256x2048 : Shape := ⟨3, ![2, 256, 2048]⟩
abbrev S2 : Shape := ⟨1, ![2]⟩
abbrev S2048x2048 : Shape := ⟨2, ![2048, 2048]⟩
abbrev S2048x8 : Shape := ⟨2, ![2048, 8]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x8x8 : Shape := ⟨3, ![1, 8, 8]⟩
abbrev S8x8 : Shape := ⟨2, ![8, 8]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x8, .f32⟩
  | .hbm, ⟨1, _⟩ => ⟨S8x2048x2048, .f32⟩
  | .hbm, ⟨2, _⟩ => ⟨S5x8x8, .f32⟩
  | .hbm, ⟨3, _⟩ => ⟨S8, .f32⟩
  | .hbm, ⟨4, _⟩ => ⟨S1x8, .f32⟩
  | .hbm, ⟨5, _⟩ => ⟨S8x2048x8, .f32⟩
  | .local _ .vmem, ⟨0, _⟩ => ⟨S1x2048x8, .f32⟩
  | .local _ .vmem, ⟨1, _⟩ => ⟨S1x2048x8, .f32⟩
  | .local _ .vmem, ⟨2, _⟩ => ⟨S5x8x8, .f32⟩
  | .local _ .vmem, ⟨3, _⟩ => ⟨S1x8, .f32⟩
  | .local _ .vmem, ⟨4, _⟩ => ⟨S1x2048x8, .f32⟩
  | .local _ .vmem, ⟨5, _⟩ => ⟨S1x2048x8, .f32⟩
  | .local _ .vmem, ⟨6, _⟩ => ⟨S2x256x2048, .f32⟩
  | .local _ .vmem, ⟨7, _⟩ => ⟨S2048x2048, .bf16⟩
  | .local _ .vmem, ⟨8, _⟩ => ⟨S2048x8, .f32⟩
  | .local _ .vmem, ⟨9, _⟩ => ⟨S2048x8, .f32⟩
  | _, _ => ⟨S8x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c0_i32_3 : BitVec 32 := 0#32
  let c0_i32_4 : BitVec 32 := 0#32
  ![arg0.toNat, 0, 0]
def k0_off2 (i : grid0.Coords) : Fin 3 → Nat :=
  let arg0 : BitVec 32 := BitVec.ofNat 32 (i 0).val
  let c256_i32 : BitVec 32 := 256#32
  let c0_i32_14 : BitVec 32 := 0#32
  ![arg0.toNat, 256, 0]
def k0_off3 (i : grid0.Coords) : Fin 3 → Nat :=
  let arg0 : BitVec 32 := BitVec.ofNat 32 (i 0).val
  let c512_i32 : BitVec 32 := 512#32
  let c0_i32_29 : BitVec 32 := 0#32
  ![arg0.toNat, 512, 0]
def k0_off4 (i : grid0.Coords) : Fin 3 → Nat :=
  let arg0 : BitVec 32 := BitVec.ofNat 32 (i 0).val
  let c768_i32 : BitVec 32 := 768#32
  let c0_i32_43 : BitVec 32 := 0#32
  ![arg0.toNat, 768, 0]
def k0_off5 (i : grid0.Coords) : Fin 3 → Nat :=
  let arg0 : BitVec 32 := BitVec.ofNat 32 (i 0).val
  let c1024_i32 : BitVec 32 := 1024#32
  let c0_i32_58 : BitVec 32 := 0#32
  ![arg0.toNat, 1024, 0]
def k0_off6 (i : grid0.Coords) : Fin 3 → Nat :=
  let arg0 : BitVec 32 := BitVec.ofNat 32 (i 0).val
  let c1280_i32 : BitVec 32 := 1280#32
  let c0_i32_73 : BitVec 32 := 0#32
  ![arg0.toNat, 1280, 0]
def k0_off7 (i : grid0.Coords) : Fin 3 → Nat :=
  let arg0 : BitVec 32 := BitVec.ofNat 32 (i 0).val
  let c1536_i32 : BitVec 32 := 1536#32
  let c0_i32_88 : BitVec 32 := 0#32
  ![arg0.toNat, 1536, 0]
def k0_off8 (i : grid0.Coords) : Fin 3 → Nat :=
  let arg0 : BitVec 32 := BitVec.ofNat 32 (i 0).val
  let c1792_i32 : BitVec 32 := 1792#32
  let c0_i32_103 : BitVec 32 := 0#32
  ![arg0.toNat, 1792, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8_S1x8 : S8.ShapeCasts S1x8
  inb_S2_S1_0 : ∀ a, (![0] : Fin 1 → Nat) a + S1.size a ≤ S2.size a
  squeezes_S1_S_ : S1.Squeezes S_
  inb_S2x256x2048_S1x256x2048_0_0_0 : ∀ a, (![0, 0, 0] : Fin 3 → Nat) a + S1x256x2048.size a ≤ S2x256x2048.size a
  squeezes_S1x256x2048_S256x2048 : S1x256x2048.Squeezes S256x2048
  inb_S2_S1_1 : ∀ a, (![1] : Fin 1 → Nat) a + S1.size a ≤ S2.size a
  inb_S2x256x2048_S1x256x2048_1_0_0 : ∀ a, (![1, 0, 0] : Fin 3 → Nat) a + S1x256x2048.size a ≤ S2x256x2048.size a
  h_S1x256x2048 : 0 < S1x256x2048.numel
  shapeCasts_S1x256x2048_S256x2048 : S1x256x2048.ShapeCasts S256x2048
  bitsLt_bf16_f32 : FTy.bits .bf16 < FTy.bits .f32
  inb_S2048x2048_S256x2048_0_0 : ∀ a, (![0, 0] : Fin 2 → Nat) a + S256x2048.size a ≤ S2048x2048.size a
  h_S256x2048 : 0 < S256x2048.numel
  shapeCasts_S256x2048_S256x2048 : S256x2048.ShapeCasts S256x2048
  packedbf16_S2048x2048_S256x2048_0_0 : (Rect.unit (s := S2048x2048) ![0, 0] S256x2048.size inb_S2048x2048_S256x2048_0_0).PackedRows (EltTy.packing .bf16)
  inb_S2048x2048_S256x2048_256_0 : ∀ a, (![256, 0] : Fin 2 → Nat) a + S256x2048.size a ≤ S2048x2048.size a
  packedbf16_S2048x2048_S256x2048_256_0 : (Rect.unit (s := S2048x2048) ![256, 0] S256x2048.size inb_S2048x2048_S256x2048_256_0).PackedRows (EltTy.packing .bf16)
  inb_S2048x2048_S256x2048_512_0 : ∀ a, (![512, 0] : Fin 2 → Nat) a + S256x2048.size a ≤ S2048x2048.size a
  packedbf16_S2048x2048_S256x2048_512_0 : (Rect.unit (s := S2048x2048) ![512, 0] S256x2048.size inb_S2048x2048_S256x2048_512_0).PackedRows (EltTy.packing .bf16)
  inb_S2048x2048_S256x2048_768_0 : ∀ a, (![768, 0] : Fin 2 → Nat) a + S256x2048.size a ≤ S2048x2048.size a
  packedbf16_S2048x2048_S256x2048_768_0 : (Rect.unit (s := S2048x2048) ![768, 0] S256x2048.size inb_S2048x2048_S256x2048_768_0).PackedRows (EltTy.packing .bf16)
  inb_S2048x2048_S256x2048_1024_0 : ∀ a, (![1024, 0] : Fin 2 → Nat) a + S256x2048.size a ≤ S2048x2048.size a
  packedbf16_S2048x2048_S256x2048_1024_0 : (Rect.unit (s := S2048x2048) ![1024, 0] S256x2048.size inb_S2048x2048_S256x2048_1024_0).PackedRows (EltTy.packing .bf16)
  inb_S2048x2048_S256x2048_1280_0 : ∀ a, (![1280, 0] : Fin 2 → Nat) a + S256x2048.size a ≤ S2048x2048.size a
  packedbf16_S2048x2048_S256x2048_1280_0 : (Rect.unit (s := S2048x2048) ![1280, 0] S256x2048.size inb_S2048x2048_S256x2048_1280_0).PackedRows (EltTy.packing .bf16)
  inb_S2048x2048_S256x2048_1536_0 : ∀ a, (![1536, 0] : Fin 2 → Nat) a + S256x2048.size a ≤ S2048x2048.size a
  packedbf16_S2048x2048_S256x2048_1536_0 : (Rect.unit (s := S2048x2048) ![1536, 0] S256x2048.size inb_S2048x2048_S256x2048_1536_0).PackedRows (EltTy.packing .bf16)
  inb_S2048x2048_S256x2048_1792_0 : ∀ a, (![1792, 0] : Fin 2 → Nat) a + S256x2048.size a ≤ S2048x2048.size a
  packedbf16_S2048x2048_S256x2048_1792_0 : (Rect.unit (s := S2048x2048) ![1792, 0] S256x2048.size inb_S2048x2048_S256x2048_1792_0).PackedRows (EltTy.packing .bf16)
  inb_S1x2048x8_S1x2048x8_0_0_0 : ∀ a, (![0, 0, 0] : Fin 3 → Nat) a + S1x2048x8.size a ≤ S1x2048x8.size a
  h_S1x2048x8 : 0 < S1x2048x8.numel
  shapeCasts_S1x2048x8_S2048x8 : S1x2048x8.ShapeCasts S2048x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S5x8x8_S1x8x8_0_0_0 : ∀ a, (![0, 0, 0] : Fin 3 → Nat) a + S1x8x8.size a ≤ S5x8x8.size a
  h_S1x8x8 : 0 < S1x8x8.numel
  shapeCasts_S1x8x8_S8x8 : S1x8x8.ShapeCasts S8x8
  inb_S2048x2048_S2048x2048_0_0 : ∀ a, (![0, 0] : Fin 2 → Nat) a + S2048x2048.size a ≤ S2048x2048.size a
  h_S2048x2048 : 0 < S2048x2048.numel
  inb_S5x8x8_S1x8x8_1_0_0 : ∀ a, (![1, 0, 0] : Fin 3 → Nat) a + S1x8x8.size a ≤ S5x8x8.size a
  inb_S5x8x8_S1x8x8_2_0_0 : ∀ a, (![2, 0, 0] : Fin 3 → Nat) a + S1x8x8.size a ≤ S5x8x8.size a
  inb_S5x8x8_S1x8x8_3_0_0 : ∀ a, (![3, 0, 0] : Fin 3 → Nat) a + S1x8x8.size a ≤ S5x8x8.size a
  inb_S5x8x8_S1x8x8_4_0_0 : ∀ a, (![4, 0, 0] : Fin 3 → Nat) a + S1x8x8.size a ≤ S5x8x8.size a
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  shapeCasts_S2048x8_S1x2048x8 : S2048x8.ShapeCasts S1x2048x8
  dot_S2048x8_S8x8_S2048x8_1_0_0_1_n_n_wf : DotDims.WF S2048x8 S8x8 S2048x8 [1] [0] [0] [1] [] []
  dot_S2048x2048_S2048x8_S2048x8_0_0_1_1_n_n_wf : DotDims.WF S2048x2048 S2048x8 S2048x8 [0] [0] [1] [1] [] []
  hcc0_scratch1 : 6 + S2.numel ≤ 8
  hrank0 : 0 < grid0.rank
  k0_off1_inb : ∀ i : grid0.Coords, ∀ a, (k0_off1 i) a + S1x256x2048.size a ≤ S8x2048x2048.size a
  k0_off2_inb : ∀ i : grid0.Coords, ∀ a, (k0_off2 i) a + S1x256x2048.size a ≤ S8x2048x2048.size a
  k0_off3_inb : ∀ i : grid0.Coords, ∀ a, (k0_off3 i) a + S1x256x2048.size a ≤ S8x2048x2048.size a
  k0_off4_inb : ∀ i : grid0.Coords, ∀ a, (k0_off4 i) a + S1x256x2048.size a ≤ S8x2048x2048.size a
  k0_off5_inb : ∀ i : grid0.Coords, ∀ a, (k0_off5 i) a + S1x256x2048.size a ≤ S8x2048x2048.size a
  k0_off6_inb : ∀ i : grid0.Coords, ∀ a, (k0_off6 i) a + S1x256x2048.size a ≤ S8x2048x2048.size a
  k0_off7_inb : ∀ i : grid0.Coords, ∀ a, (k0_off7 i) a + S1x256x2048.size a ≤ S8x2048x2048.size a
  k0_off8_inb : ∀ i : grid0.Coords, ∀ a, (k0_off8 i) a + S1x256x2048.size a ≤ S8x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x2048x8.size a ≤ S8x2048x8.size a
  hwx0_0 : ∀ i : grid0.Coords, EltTy.bits .f32 = 32 ∨ (Rect.block (s := S8x2048x8) S1x2048x8.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S5x8x8.size a ≤ S5x8x8.size a
  hwx0_1 : ∀ i : grid0.Coords, EltTy.bits .f32 = 32 ∨ (Rect.block (s := S5x8x8) S5x8x8.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x8.size a ≤ S1x8.size a
  hwx0_2 : ∀ i : grid0.Coords, EltTy.bits .f32 = 32 ∨ (Rect.block (s := S1x8) S1x8.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x2048x8.size a ≤ S8x2048x8.size a
  hwx0_3 : ∀ i : grid0.Coords, EltTy.bits .f32 = 32 ∨ (Rect.block (s := S8x2048x8) S1x2048x8.size (cc0_transform_4 i) (hinb0_3 i)).WholeWords (EltTy.packing .f32)

variable [Facts₀]

abbrev cc0_scratch1 : DmaSems sig S2 := SemArray.consecutive 6 S2 hcc0_scratch1
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x2048_S2048x8_S2048x8_0_0_1_1_n_n : DotDims S2048x2048 S2048x8 S2048x8 where
  lhsContracting := [0]
  rhsContracting := [0]
  lhsNonContracting := [1]
  rhsNonContracting := [1]
  lhsBatch := []
  rhsBatch := []
  wf := dot_S2048x2048_S2048x8_S2048x8_0_0_1_1_n_n_wf

abbrev win0_0 : Pipeline.Window sig grid0 :=
  Pipeline.Window.ofSpec (Memref.whole main_arg0) S1x2048x8.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x8x8.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x8.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x8 : Shape := ⟨3, ![8, 2048, 8]⟩
abbrev S8x2048x2048 : Shape := ⟨3, ![8, 2048, 2048]⟩
abbrev S5x8x8 : Shape := ⟨3, ![5, 8, 8]⟩
abbrev S8 : Shape := ⟨1, ![8]⟩
abbrev S1x8x8 : Shape := ⟨3, ![1, 8, 8]⟩
abbrev S8x8 : Shape := ⟨2, ![8, 8]⟩
abbrev S1x1x8 : Shape := ⟨3, ![1, 1, 8]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x8, .f32⟩
  | .hbm, ⟨1, _⟩ => ⟨S8x2048x2048, .f32⟩
  | .hbm, ⟨2, _⟩ => ⟨S5x8x8, .f32⟩
  | .hbm, ⟨3, _⟩ => ⟨S8, .f32⟩
  | .hbm, ⟨4, _⟩ => ⟨S1x8x8, .f32⟩
  | .hbm, ⟨5, _⟩ => ⟨S8x8, .f32⟩
  | .hbm, ⟨6, _⟩ => ⟨S8x2048x8, .f32⟩
  | .hbm, ⟨7, _⟩ => ⟨S8x2048x8, .f32⟩
  | .hbm, ⟨8, _⟩ => ⟨S1x8x8, .f32⟩
  | .hbm, ⟨9, _⟩ => ⟨S8x8, .f32⟩
  | .hbm, ⟨10, _⟩ => ⟨S8x2048x8, .f32⟩
  | .hbm, ⟨11, _⟩ => ⟨S8x2048x8, .f32⟩
  | .hbm, ⟨12, _⟩ => ⟨S8x2048x8, .f32⟩
  | .hbm, ⟨13, _⟩ => ⟨S1x8x8, .f32⟩
  | .hbm, ⟨14, _⟩ => ⟨S8x8, .f32⟩
  | .hbm, ⟨15, _⟩ => ⟨S8x2048x8, .f32⟩
  | .hbm, ⟨16, _⟩ => ⟨S8x2048x8, .f32⟩
  | .hbm, ⟨17, _⟩ => ⟨S8x2048x8, .f32⟩
  | .hbm, ⟨18, _⟩ => ⟨S1x8x8, .f32⟩
  | .hbm, ⟨19, _⟩ => ⟨S8x8, .f32⟩
  | .hbm, ⟨20, _⟩ => ⟨S8x2048x8, .f32⟩
  | .hbm, ⟨21, _⟩ => ⟨S8x2048x8, .f32⟩
  | .hbm, ⟨22, _⟩ => ⟨S8x2048x8, .f32⟩
  | .hbm, ⟨23, _⟩ => ⟨S1x8x8, .f32⟩
  | .hbm, ⟨24, _⟩ => ⟨S8x8, .f32⟩
  | .hbm, ⟨25, _⟩ => ⟨S8x2048x8, .f32⟩
  | .hbm, ⟨26, _⟩ => ⟨S8x2048x8, .f32⟩
  | .hbm, ⟨27, _⟩ => ⟨S1x1x8, .f32⟩
  | .hbm, ⟨28, _⟩ => ⟨S8x2048x8, .f32⟩
  | .hbm, ⟨29, _⟩ => ⟨S8x2048x8, .f32⟩
  | _, _ => ⟨S8x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]

class Facts₀ : Prop where
  slices_S5x8x8_S1x8x8_0_0_0 : S5x8x8.Slices ![0, 0, 0] S1x8x8
  shapeCasts_S1x8x8_S8x8 : S1x8x8.ShapeCasts S8x8
  slices_S5x8x8_S1x8x8_1_0_0 : S5x8x8.Slices ![1, 0, 0] S1x8x8
  slices_S5x8x8_S1x8x8_2_0_0 : S5x8x8.Slices ![2, 0, 0] S1x8x8
  slices_S5x8x8_S1x8x8_3_0_0 : S5x8x8.Slices ![3, 0, 0] S1x8x8
  slices_S5x8x8_S1x8x8_4_0_0 : S5x8x8.Slices ![4, 0, 0] S1x8x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  dot_S8x2048x8_S8x8_S8x2048x8_2_0_01_1_n_n_wf : DotDims.WF S8x2048x8 S8x8 S8x2048x8 [2] [0] [0, 1] [1] [] []
  dot_S8x2048x2048_S8x2048x8_S8x2048x8_1_1_2_2_0_0_wf : DotDims.WF S8x2048x2048 S8x2048x8 S8x2048x8 [1] [1] [2] [2] [0] [0]

variable [Facts₀]

def dot_S8x2048x8_S8x8_S8x2048x8_2_0_01_1_n_n : DotDims S8x2048x8 S8x8 S8x2048x8 where
  lhsContracting := [2]
  rhsContracting := [0]
  lhsNonContracting := [0, 1]
  rhsNonContracting := [1]
  lhsBatch := []
  rhsBatch := []
  wf := dot_S8x2048x8_S8x8_S8x2048x8_2_0_01_1_n_n_wf
def dot_S8x2048x2048_S8x2048x8_S8x2048x8_1_1_2_2_0_0 : DotDims S8x2048x2048 S8x2048x8 S8x2048x8 where
  lhsContracting := [1]
  rhsContracting := [1]
  lhsNonContracting := [2]
  rhsNonContracting := [2]
  lhsBatch := [0]
  rhsBatch := [0]
  wf := dot_S8x2048x2048_S8x2048x8_S8x2048x8_1_1_2_2_0_0_wf

class Facts : Prop extends Facts₀ where

variable [Facts]
-- ==== Proof.LibStage.lean ====
/-
  A buffer filled slot by slot through reshaped slices, read back through the buffer's own view.

  A double-buffered staging array is written one slot at a time: each delivery goes through a rectangle of the array
  re-laid at another shape (a slot of a `2 × a × b` array seen as an `a × b` matrix). Such a delivery is one unmasked
  write through the rectangle of the payload re-indexed in row-major order, so a run of deliveries is a list of
  pieces; and a load of a box that the pieces cover reads the same whatever the array held before the first delivery.
-/
import Idealize.ShloMosaic.Lib.Pipeline.FrameBody

noncomputable section

namespace Cert.Lib.Stage

open Idealize.ShloMosaic

variable {sig : RefSig} {κ : Kind} {sp : Space} {s : Shape} {e : EltTy} {Val : EltTy → Type}

/-- A delivery through rectangle `r` of a view, re-laid at shape `s'`, onto contents that earlier pieces `L` left,
    is one more piece: the payload read at the row-major position of the rectangle's own index. -/
theorem write_reshaped_slice_cons (v : View sig κ sp s e) (r : Rect s) (s' : Shape) (h : s'.numel = r.shape.numel)
    (f : v.ty.Contents Val) (L : List (View.Piece Val s e)) (w : s'.Idx → Val e) :
    ((v.slice r).reshape s' h).write Val (v.writes Val f L) w Finset.univ
      = v.writes Val f (⟨r, fun x => w ((Shape.reshapeEquiv h).symm x)⟩ :: L) := by
  rw [View.write_reshape_univ]
  rfl

/-- Contents are the empty list of pieces written over themselves. -/
theorem writes_nil_eq (v : View sig κ sp s e) (f : v.ty.Contents Val) : f = v.writes Val f [] := rfl

/-- A load of a box that the pieces cover reads the same over any two prior contents. -/
theorem readAt_writes_indep [∀ e, Nonempty (Val e)] (v : View sig κ sp s e) (L : List (View.Piece Val s e)) (B : LoadRect s)
    (h : ∀ j : B.shape.Idx, ∃ p ∈ L, B.idx j ∈ p.1.set) (f f' : v.ty.Contents Val) :
    v.readAt Val B (v.writes Val f L) = v.readAt Val B (v.writes Val f' L) :=
  (View.readAt_writes_of_cover v f L B h).trans (View.readAt_writes_of_cover v f' L B h).symm

/-- A load through a rectangle after a list of pieces whose HEAD is a piece at that same rectangle reads the head's
    payload. -/
theorem readAt_writes_head (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load through a rectangle after a list of pieces whose head is DISJOINT from the rectangle reads the rest. -/
theorem readAt_writes_skip (v : View sig κ sp s e) (f : v.ty.Contents Val) (r : Rect s) (p : View.Piece Val s e)
    (L : List (View.Piece Val s e)) (hd : ∀ x : r.shape.Idx, r.emb x ∉ p.1.set) :
    v.readAt Val r.toLoadRect (v.writes Val f (p :: L)) = v.readAt Val r.toLoadRect (v.writes Val f L) :=
  funext fun x => by
    show v.read Val (v.writes Val f (p :: L)) (r.emb x) = v.read Val (v.writes Val f L) (r.emb x)
    rw [View.writes_cons, View.read_slice_write_of_not_mem p.1 _ _ _ (by rw [Rect.map_emb_univ]; exact hd x)]

end Cert.Lib.Stage

end
-- ==== Proof.BodyRunKernel.lean ====
/-
  The kernel body, run once.

  The body copies its batch's operator (2048 × 2048) out of main memory in eight transfers of 256 rows, alternating
  between the two slots of a staging scratch: each transfer is waited for before its slot is loaded, and the next
  one into the other slot is started meanwhile. The loaded rows are stored, converted, into a second scratch that
  holds the whole operator; then come the five taps and four shifts, through two more scratch buffers, and one store
  of the result into the output's staging buffer.

  What that one store leaves is a function of the input blocks and of the operator ALONE: a slot loaded after its own
  transfer has landed holds the transferred rows whatever the scratch held before the body started (the deliveries
  are a list of pieces, and the loaded box is covered by the piece at the same slot), and every later value is
  computed from those loads. This is what lets the output's contents be stated once, outside the run, although the
  scratch buffers' contents on entry are not known.
-/
import proofs.«102626_j66554813219094_2_alg».proof.Proof.Gen.Kernel.Frame.Runs
import proofs.«102626_j66554813219094_2_alg».proof.Proof.LibStage

-- membership in a rectangle of production extents (`View.cover_of_tiled`): the elaborator's structural look
-- recurses once per coordinate of the long axes
set_option maxRecDepth 16384

noncomputable section

namespace Cert.Kernel.Body

open Cert.Kernel.Gen Cert.Lib.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in
/-- The body, run once on whole staging buffers: the list of pieces it leaves in the output's staging buffer (one
    covering store), with the proof that from the inputs' buffers at their blocks, the scratch buffers at anything,
    the operator in main memory at its launch contents and the body's two transfer counters at zero, the body runs
    to the continuation holding the inputs as they were, the scratch at some contents, the operator and the counters
    as they were, and the output's buffer with that piece written. -/
noncomputable def kernelRun0_A (c : Dev nD) (i : grid0.Coords) (arg2 : Memref sig .tc .vmem S1x2048x8 .f32) (harg2 : arg2.IsWhole) (arg3 : Memref sig .tc .vmem S5x8x8 .f32) (harg3 : arg3.IsWhole) (arg4 : Memref sig .tc .vmem S1x8 .f32) (harg4 : arg4.IsWhole) (arg5 : Memref sig .tc .vmem S1x2048x8 .f32) (harg5 : arg5.IsWhole) (arg6 : Memref sig .tc .vmem S2x256x2048 .f32) (harg6 : arg6.IsWhole) (arg8 : Memref sig .tc .vmem S2048x2048 .bf16) (harg8 : arg8.IsWhole) (arg9 : Memref sig .tc .vmem S2048x8 .f32) (harg9 : arg9.IsWhole) (arg10 : Memref sig .tc .vmem S2048x8 .f32) (harg10 : arg10.IsWhole)
    (x0 : Vec F S1x2048x8 .f32) (x1 : Vec F S5x8x8 .f32) (x2 : Vec F S1x8 .f32) (fh0 : HbBuf0 (F := F) c hbM0_0) :
    { L3 : List (View.Piece (Elt F) S1x2048x8 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0__kernel i (Memref.whole main_arg1) (Memref.isWhole_whole _) arg2 harg2 arg3 harg3 arg4 harg4 arg5 harg5 arg6 harg6 cc0_scratch1 arg8 harg8 arg9 harg9 arg10 harg10) K } := by
  refine ⟨?_, fun W K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hq0, Hq1, Hh0, HW, Hk⟩
    obtain rfl := harg2.eq_unread hf0; obtain rfl := harg3.eq_unread hf1; obtain rfl := harg4.eq_unread hf2
    sl_exec
    sl_step
    -- Each load of a staging slot comes after the transfer into that slot has landed: the eight loads read the delivered
    -- rows, the same over any two prior contents `G`, `G'` of the staging scratch.
    have h18 : ∀ G G', kernelRun0_A.sl.v18 c i arg6 fh0 G = kernelRun0_A.sl.v18 c i arg6 fh0 G' := fun G G' => by
      unfold kernelRun0_A.sl.v18
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h36 : ∀ G G', kernelRun0_A.sl.v36 c i arg6 fh0 G = kernelRun0_A.sl.v36 c i arg6 fh0 G' := fun G G' => by
      unfold kernelRun0_A.sl.v36
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h54 : ∀ G G', kernelRun0_A.sl.v c i arg6 fh0 G = kernelRun0_A.sl.v c i arg6 fh0 G' := fun G G' => by
      unfold kernelRun0_A.sl.v
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h72 : ∀ G G', kernelRun0_A.sl.v72 c i arg6 fh0 G = kernelRun0_A.sl.v72 c i arg6 fh0 G' := fun G G' => by
      unfold kernelRun0_A.sl.v72
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h90 : ∀ G G', kernelRun0_A.sl.v90 c i arg6 fh0 G = kernelRun0_A.sl.v90 c i arg6 fh0 G' := fun G G' => by
      unfold kernelRun0_A.sl.v90
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h108 : ∀ G G', kernelRun0_A.sl.v108 c i arg6 fh0 G = kernelRun0_A.sl.v108 c i arg6 fh0 G' := fun G G' => by
      unfold kernelRun0_A.sl.v108
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h126 : ∀ G G', kernelRun0_A.sl.v126 c i arg6 fh0 G = kernelRun0_A.sl.v126 c i arg6 fh0 G' := fun G G' => by
      unfold kernelRun0_A.sl.v126
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h138 : ∀ G G', kernelRun0_A.sl.v138 c i arg6 fh0 G = kernelRun0_A.sl.v138 c i arg6 fh0 G' := fun G G' => by
      unfold kernelRun0_A.sl.v138
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_self, LoadRect.idx_mem _ j⟩
    -- So is everything computed from them: the converted operator, the shifted signals, the running sum of taps.
    have hr : ∀ G G', kernelRun0_A.sl.r c i arg6 fh0 G = kernelRun0_A.sl.r c i arg6 fh0 G' := fun G G' => by
      unfold kernelRun0_A.sl.r; rw [h108 G G']
    have hr1 : ∀ G G', kernelRun0_A.sl.r_1 c i arg6 fh0 G = kernelRun0_A.sl.r_1 c i arg6 fh0 G' := fun G G' => by
      unfold kernelRun0_A.sl.r_1; rw [h138 G G']
    have hS : ∀ G G', kernelRun0_A.sl.HS1_8 c i arg6 fh0 G = kernelRun0_A.sl.HS1_8 c i arg6 fh0 G' := fun G G' => by
      unfold kernelRun0_A.sl.HS1_8; rw [hr1 G G', h126 G G', hr G G', h90 G G', h72 G G', h54 G G', h36 G G', h18 G G']
    have h160 : ∀ G G', kernelRun0_A.sl.v160 c i arg6 arg8 fh0 G = kernelRun0_A.sl.v160 c i arg6 arg8 fh0 G' := fun G G' => by
      unfold kernelRun0_A.sl.v160; rw [hS G G']
    have hX2 : ∀ G G', kernelRun0_A.sl.HS2_2 c i arg2 harg2 arg6 arg8 arg9 x0 fh0 G = kernelRun0_A.sl.HS2_2 c i arg2 harg2 arg6 arg8 arg9 x0 fh0 G' := fun G G' => by
      unfold kernelRun0_A.sl.HS2_2; rw [h160 G G']
    have h175 : ∀ G G', kernelRun0_A.sl.v175 c i arg2 harg2 arg6 arg8 arg9 x0 fh0 G = kernelRun0_A.sl.v175 c i arg2 harg2 arg6 arg8 arg9 x0 fh0 G' := fun G G' => by
      unfold kernelRun0_A.sl.v175; rw [hX2 G G']
    have hX3 : ∀ G G', kernelRun0_A.sl.HS2_3 c i arg2 harg2 arg6 arg8 arg9 x0 fh0 G = kernelRun0_A.sl.HS2_3 c i arg2 harg2 arg6 arg8 arg9 x0 fh0 G' := fun G G' => by
      unfold kernelRun0_A.sl.HS2_3; rw [h175 G G', h160 G G', hX2 G G']
    have h192 : ∀ G G', kernelRun0_A.sl.v192 c i arg2 harg2 arg6 arg8 arg9 x0 fh0 G = kernelRun0_A.sl.v192 c i arg2 harg2 arg6 arg8 arg9 x0 fh0 G' := fun G G' => by
      unfold kernelRun0_A.sl.v192; rw [hX3 G G']
    have hX4 : ∀ G G', kernelRun0_A.sl.HS2_4 c i arg2 harg2 arg6 arg8 arg9 x0 fh0 G = kernelRun0_A.sl.HS2_4 c i arg2 harg2 arg6 arg8 arg9 x0 fh0 G' := fun G G' => by
      unfold kernelRun0_A.sl.HS2_4; rw [h192 G G', h160 G G', hX3 G G']
    have h209 : ∀ G G', kernelRun0_A.sl.v209 c i arg2 harg2 arg6 arg8 arg9 x0 fh0 G = kernelRun0_A.sl.v209 c i arg2 harg2 arg6 arg8 arg9 x0 fh0 G' := fun G G' => by
      unfold kernelRun0_A.sl.v209; rw [hX4 G G']
    have hr2 : ∀ G G', kernelRun0_A.sl.r_2 c i arg2 harg2 arg6 arg8 arg9 x0 fh0 G = kernelRun0_A.sl.r_2 c i arg2 harg2 arg6 arg8 arg9 x0 fh0 G' := fun G G' => by
      unfold kernelRun0_A.sl.r_2; rw [h160 G G']
    have hr4 : ∀ G G', kernelRun0_A.sl.r_4 c i arg2 harg2 arg6 arg8 arg9 x0 fh0 G = kernelRun0_A.sl.r_4 c i arg2 harg2 arg6 arg8 arg9 x0 fh0 G' := fun G G' => by
      unfold kernelRun0_A.sl.r_4; rw [h192 G G', h160 G G']
    have hA2 : ∀ G G', kernelRun0_A.sl.HS3_2 c i arg2 harg2 arg3 harg3 arg6 arg8 arg9 arg10 x0 x1 fh0 G = kernelRun0_A.sl.HS3_2 c i arg2 harg2 arg3 harg3 arg6 arg8 arg9 arg10 x0 x1 fh0 G' := fun G G' => by
      unfold kernelRun0_A.sl.HS3_2; rw [hr2 G G']
    have h182 : ∀ G G', kernelRun0_A.sl.v182 c i arg2 harg2 arg3 harg3 arg6 arg8 arg9 arg10 x0 x1 fh0 G = kernelRun0_A.sl.v182 c i arg2 harg2 arg3 harg3 arg6 arg8 arg9 arg10 x0 x1 fh0 G' := fun G G' => by
      unfold kernelRun0_A.sl.v182; rw [hA2 G G']
    have hA3 : ∀ G G', kernelRun0_A.sl.HS3_3 c i arg2 harg2 arg3 harg3 arg6 arg8 arg9 arg10 x0 x1 fh0 G = kernelRun0_A.sl.HS3_3 c i arg2 harg2 arg3 harg3 arg6 arg8 arg9 arg10 x0 x1 fh0 G' := fun G G' => by
      unfold kernelRun0_A.sl.HS3_3; rw [h175 G G', h160 G G', h182 G G', hA2 G G']
    have h199 : ∀ G G', kernelRun0_A.sl.v199 c i arg2 harg2 arg3 harg3 arg6 arg8 arg9 arg10 x0 x1 fh0 G = kernelRun0_A.sl.v199 c i arg2 harg2 arg3 harg3 arg6 arg8 arg9 arg10 x0 x1 fh0 G' := fun G G' => by
      unfold kernelRun0_A.sl.v199; rw [hA3 G G']
    have hA4 : ∀ G G', kernelRun0_A.sl.HS3_4 c i arg2 harg2 arg3 harg3 arg6 arg8 arg9 arg10 x0 x1 fh0 G = kernelRun0_A.sl.HS3_4 c i arg2 harg2 arg3 harg3 arg6 arg8 arg9 arg10 x0 x1 fh0 G' := fun G G' => by
      unfold kernelRun0_A.sl.HS3_4; rw [hr4 G G', h199 G G', hA3 G G']
    have h216 : ∀ G G', kernelRun0_A.sl.v216 c i arg2 harg2 arg3 harg3 arg6 arg8 arg9 arg10 x0 x1 fh0 G = kernelRun0_A.sl.v216 c i arg2 harg2 arg3 harg3 arg6 arg8 arg9 arg10 x0 x1 fh0 G' := fun G G' => by
      unfold kernelRun0_A.sl.v216; rw [hA4 G G']
    have hA5 : ∀ G G', kernelRun0_A.sl.HS3_5 c i arg2 harg2 arg3 harg3 arg6 arg8 arg9 arg10 x0 x1 fh0 G = kernelRun0_A.sl.HS3_5 c i arg2 harg2 arg3 harg3 arg6 arg8 arg9 arg10 x0 x1 fh0 G' := fun G G' => by
      unfold kernelRun0_A.sl.HS3_5; rw [h209 G G', h160 G G', h216 G G', hA4 G G']
    have h226 : ∀ G G', kernelRun0_A.sl.v226 c i arg2 harg2 arg3 harg3 arg6 arg8 arg9 arg10 x0 x1 fh0 G = kernelRun0_A.sl.v226 c i arg2 harg2 arg3 harg3 arg6 arg8 arg9 arg10 x0 x1 fh0 G' := fun G G' => by
      unfold kernelRun0_A.sl.v226; rw [hA5 G G']
    have hr5 : ∀ G G', kernelRun0_A.sl.r_5 c i arg2 harg2 arg3 harg3 arg4 harg4 arg6 arg8 arg9 arg10 x0 x1 x2 fh0 G = kernelRun0_A.sl.r_5 c i arg2 harg2 arg3 harg3 arg4 harg4 arg6 arg8 arg9 arg10 x0 x1 x2 fh0 G' := fun G G' => by
      unfold kernelRun0_A.sl.r_5; rw [h226 G G']
    -- The output buffer's one piece, stated over contents fixed outside the run.
    rw [hr5 fs0 (View.junk (Val := Elt F) arg6.view)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.Kernel.Body

end
-- ==== Proof.BodyFrameKernel.lean ====
/-
  The frame of the program, from the body's run.

  The launch stages a block of the signal, the weights and the bias row in staging buffers, calls the body at each
  of the eight grid points (one batch each), and writes the output's staging buffer back to its block of the result.
  Here: the body's one store covers the output's staging buffer, so what the buffer holds after the body is the
  store's payload read back (`out0_A_3`, `outsAt0`); the proof data of the pipeline (the arrays as the region finds
  them; after the body each input's buffer at its block and the output's at that payload; the invariant that hands
  the body its scratch buffers, its two transfer counters at zero and the operator in main memory, and takes them
  back); the body's obligation at a generic point, discharged by the run; the run of the whole program; and the frame:
  every execution terminates without a fault and leaves the argument arrays unchanged.
-/
import proofs.«102626_j66554813219094_2_alg».proof.Proof.BodyRunKernel

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 3 tile its block (1 store of `S1x2048x8`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x2048x8 .f32) (harg2 : arg2.IsWhole) (arg3 : Memref sig .tc .vmem S5x8x8 .f32) (harg3 : arg3.IsWhole) (arg4 : Memref sig .tc .vmem S1x8 .f32) (harg4 : arg4.IsWhole) (arg5 : Memref sig .tc .vmem S1x2048x8 .f32) (harg5 : arg5.IsWhole) (arg6 : Memref sig .tc .vmem S2x256x2048 .f32) (harg6 : arg6.IsWhole) (arg8 : Memref sig .tc .vmem S2048x2048 .bf16) (harg8 : arg8.IsWhole) (arg9 : Memref sig .tc .vmem S2048x8 .f32) (harg9 : arg9.IsWhole) (arg10 : Memref sig .tc .vmem S2048x8 .f32) (harg10 : arg10.IsWhole)
    (x0 : Vec F S1x2048x8 .f32) (x1 : Vec F S5x8x8 .f32) (x2 : Vec F S1x8 .f32) (fh0 : HbBuf0 (F := F) c hbM0_0) (y : S1x2048x8.Idx) :
    ∃ pc ∈ (kernelRun0_A c i arg2 harg2 arg3 harg3 arg4 harg4 arg5 harg5 arg6 harg6 arg8 harg8 arg9 harg9 arg10 harg10 x0 x1 x2 fh0).1, y ∈ pc.1.set :=
  View.cover_of_tiledL (kernelRun0_A c i arg2 harg2 arg3 harg3 arg4 harg4 arg5 harg5 arg6 harg6 arg8 harg8 arg9 harg9 arg10 harg10 x0 x1 x2 fh0).1 S1x2048x8.size (by sl_kernel_rfl) y

/-- What the run leaves in output 3's staging buffer: its pieces read back over junk. -/
def out0_A_3 (c : Dev nD) (i : grid0.Coords) (arg2 : Memref sig .tc .vmem S1x2048x8 .f32) (harg2 : arg2.IsWhole) (arg3 : Memref sig .tc .vmem S5x8x8 .f32) (harg3 : arg3.IsWhole) (arg4 : Memref sig .tc .vmem S1x8 .f32) (harg4 : arg4.IsWhole) (arg5 : Memref sig .tc .vmem S1x2048x8 .f32) (harg5 : arg5.IsWhole) (arg6 : Memref sig .tc .vmem S2x256x2048 .f32) (harg6 : arg6.IsWhole) (arg8 : Memref sig .tc .vmem S2048x2048 .bf16) (harg8 : arg8.IsWhole) (arg9 : Memref sig .tc .vmem S2048x8 .f32) (harg9 : arg9.IsWhole) (arg10 : Memref sig .tc .vmem S2048x8 .f32) (harg10 : arg10.IsWhole)
    (x0 : Vec F S1x2048x8 .f32) (x1 : Vec F S5x8x8 .f32) (x2 : Vec F S1x8 .f32) (fh0 : HbBuf0 (F := F) c hbM0_0) : Vec F S1x2048x8 .f32 :=
  VO0_3.read (Elt F) (VO0_3.writes (Elt F) VO0_3.junk (kernelRun0_A c i arg2 harg2 arg3 harg3 arg4 harg4 arg5 harg5 arg6 harg6 arg8 harg8 arg9 harg9 arg10 harg10 x0 x1 x2 fh0).1)

/-! ## What the outputs hold after each point -/

/-- What the outputs' staging buffers hold after the body at point `t`: the run's contents at
    the point's memrefs and input blocks. -/
def outsAt0 (c : Dev nD) (t : Fin cfg0.N) : Vec F S1x2048x8 .f32 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (V m c main_arg1)

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_3
  iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩⟩
  iapply ((kernelRun0_A c (grid0.coords t) _ _ _ _ _ _ _ _ _ _ _ _ _ _ _ _ (iblk m c 0 t) (iblk m c 1 t) (iblk m c 2 t) (V m c main_arg1)).2 W _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [HW]; · iexact HW
  iintro ⟨H0, H1, H2, ⟨%e3, H3⟩, HS0, HS1, HS2, HS3, Hq0, Hq1, Hh0, ⟨%W', HW'⟩⟩
  isplitl [HS0 HS1 HS2 HS3 Hg Hq0 Hq1 Hh0]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- `θ_run_frame_dma`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- info: 'Cert.Kernel.Body.run_main' depends on axioms: [propext, Classical.choice, Quot.sound] -/
#guard_msgs in #print axioms run_main

/-- The frame: from any memory with zero counters every weakly fair execution of the program terminates, nothing
    faults, and the four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyRunKernelIdeal.lean ====
/-
  The kernel body, run once.

  The body copies its batch's operator (2048 × 2048) out of main memory in eight transfers of 256 rows, alternating
  between the two slots of a staging scratch: each transfer is waited for before its slot is loaded, and the next
  one into the other slot is started meanwhile. The loaded rows are stored, converted, into a second scratch that
  holds the whole operator; then come the five taps and four shifts, through two more scratch buffers, and one store
  of the result into the output's staging buffer.

  What that one store leaves is a function of the input blocks and of the operator ALONE: a slot loaded after its own
  transfer has landed holds the transferred rows whatever the scratch held before the body started (the deliveries
  are a list of pieces, and the loaded box is covered by the piece at the same slot), and every later value is
  computed from those loads. This is what lets the output's contents be stated once, outside the run, although the
  scratch buffers' contents on entry are not known.
-/
import proofs.«102626_j66554813219094_2_alg».proof.Proof.Gen.KernelIdeal.Frame.Runs
import proofs.«102626_j66554813219094_2_alg».proof.Proof.LibStage

-- membership in a rectangle of production extents (`View.cover_of_tiled`): the elaborator's structural look
-- recurses once per coordinate of the long axes
set_option maxRecDepth 16384

noncomputable section

namespace Cert.KernelIdeal.Body

open Cert.KernelIdeal.Gen Cert.Lib.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in
/-- The body, run once on whole staging buffers: the list of pieces it leaves in the output's staging buffer (one
    covering store), with the proof that from the inputs' buffers at their blocks, the scratch buffers at anything,
    the operator in main memory at its launch contents and the body's two transfer counters at zero, the body runs
    to the continuation holding the inputs as they were, the scratch at some contents, the operator and the counters
    as they were, and the output's buffer with that piece written. -/
noncomputable def kernelRun0_A (c : Dev nD) (i : grid0.Coords) (arg2 : Memref sig .tc .vmem S1x2048x8 .f32) (harg2 : arg2.IsWhole) (arg3 : Memref sig .tc .vmem S5x8x8 .f32) (harg3 : arg3.IsWhole) (arg4 : Memref sig .tc .vmem S1x8 .f32) (harg4 : arg4.IsWhole) (arg5 : Memref sig .tc .vmem S1x2048x8 .f32) (harg5 : arg5.IsWhole) (arg6 : Memref sig .tc .vmem S2x256x2048 .f32) (harg6 : arg6.IsWhole) (arg8 : Memref sig .tc .vmem S2048x2048 .bf16) (harg8 : arg8.IsWhole) (arg9 : Memref sig .tc .vmem S2048x8 .f32) (harg9 : arg9.IsWhole) (arg10 : Memref sig .tc .vmem S2048x8 .f32) (harg10 : arg10.IsWhole)
    (x0 : Vec F S1x2048x8 .f32) (x1 : Vec F S5x8x8 .f32) (x2 : Vec F S1x8 .f32) (fh0 : HbBuf0 (F := F) c hbM0_0) :
    { L3 : List (View.Piece (Elt F) S1x2048x8 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0__kernel i (Memref.whole main_arg1) (Memref.isWhole_whole _) arg2 harg2 arg3 harg3 arg4 harg4 arg5 harg5 arg6 harg6 cc0_scratch1 arg8 harg8 arg9 harg9 arg10 harg10) K } := by
  refine ⟨?_, fun W K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hq0, Hq1, Hh0, HW, Hk⟩
    obtain rfl := harg2.eq_unread hf0; obtain rfl := harg3.eq_unread hf1; obtain rfl := harg4.eq_unread hf2
    sl_exec
    sl_step
    -- Each load of a staging slot comes after the transfer into that slot has landed: the eight loads read the delivered
    -- rows, the same over any two prior contents `G`, `G'` of the staging scratch.
    have h18 : ∀ G G', kernelRun0_A.sl.v18 c i arg6 fh0 G = kernelRun0_A.sl.v18 c i arg6 fh0 G' := fun G G' => by
      unfold kernelRun0_A.sl.v18
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h36 : ∀ G G', kernelRun0_A.sl.v36 c i arg6 fh0 G = kernelRun0_A.sl.v36 c i arg6 fh0 G' := fun G G' => by
      unfold kernelRun0_A.sl.v36
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h54 : ∀ G G', kernelRun0_A.sl.v c i arg6 fh0 G = kernelRun0_A.sl.v c i arg6 fh0 G' := fun G G' => by
      unfold kernelRun0_A.sl.v
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h72 : ∀ G G', kernelRun0_A.sl.v72 c i arg6 fh0 G = kernelRun0_A.sl.v72 c i arg6 fh0 G' := fun G G' => by
      unfold kernelRun0_A.sl.v72
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h90 : ∀ G G', kernelRun0_A.sl.v90 c i arg6 fh0 G = kernelRun0_A.sl.v90 c i arg6 fh0 G' := fun G G' => by
      unfold kernelRun0_A.sl.v90
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h108 : ∀ G G', kernelRun0_A.sl.v108 c i arg6 fh0 G = kernelRun0_A.sl.v108 c i arg6 fh0 G' := fun G G' => by
      unfold kernelRun0_A.sl.v108
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h126 : ∀ G G', kernelRun0_A.sl.v126 c i arg6 fh0 G = kernelRun0_A.sl.v126 c i arg6 fh0 G' := fun G G' => by
      unfold kernelRun0_A.sl.v126
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_of_mem _ List.mem_cons_self, LoadRect.idx_mem _ j⟩
    have h138 : ∀ G G', kernelRun0_A.sl.v138 c i arg6 fh0 G = kernelRun0_A.sl.v138 c i arg6 fh0 G' := fun G G' => by
      unfold kernelRun0_A.sl.v138
      rw [writes_nil_eq arg6.view G, writes_nil_eq arg6.view G']
      simp only [Memref.view_squeeze, Memref.view_slice, write_reshaped_slice_cons]
      refine readAt_writes_indep (Val := Elt F) _ _ _ ?_ _ _
      intro j
      exact ⟨_, List.mem_cons_self, LoadRect.idx_mem _ j⟩
    -- So is everything computed from them: the converted operator, the shifted signals, the running sum of taps.
    have hr : ∀ G G', kernelRun0_A.sl.r c i arg6 fh0 G = kernelRun0_A.sl.r c i arg6 fh0 G' := fun G G' => by
      unfold kernelRun0_A.sl.r; rw [h108 G G']
    have hr1 : ∀ G G', kernelRun0_A.sl.r_1 c i arg6 fh0 G = kernelRun0_A.sl.r_1 c i arg6 fh0 G' := fun G G' => by
      unfold kernelRun0_A.sl.r_1; rw [h138 G G']
    have hS : ∀ G G', kernelRun0_A.sl.HS1_8 c i arg6 fh0 G = kernelRun0_A.sl.HS1_8 c i arg6 fh0 G' := fun G G' => by
      unfold kernelRun0_A.sl.HS1_8; rw [hr1 G G', h126 G G', hr G G', h90 G G', h72 G G', h54 G G', h36 G G', h18 G G']
    have h160 : ∀ G G', kernelRun0_A.sl.v160 c i arg6 arg8 fh0 G = kernelRun0_A.sl.v160 c i arg6 arg8 fh0 G' := fun G G' => by
      unfold kernelRun0_A.sl.v160; rw [hS G G']
    have hX2 : ∀ G G', kernelRun0_A.sl.HS2_2 c i arg2 harg2 arg6 arg8 arg9 x0 fh0 G = kernelRun0_A.sl.HS2_2 c i arg2 harg2 arg6 arg8 arg9 x0 fh0 G' := fun G G' => by
      unfold kernelRun0_A.sl.HS2_2; rw [h160 G G']
    have h175 : ∀ G G', kernelRun0_A.sl.v175 c i arg2 harg2 arg6 arg8 arg9 x0 fh0 G = kernelRun0_A.sl.v175 c i arg2 harg2 arg6 arg8 arg9 x0 fh0 G' := fun G G' => by
      unfold kernelRun0_A.sl.v175; rw [hX2 G G']
    have hX3 : ∀ G G', kernelRun0_A.sl.HS2_3 c i arg2 harg2 arg6 arg8 arg9 x0 fh0 G = kernelRun0_A.sl.HS2_3 c i arg2 harg2 arg6 arg8 arg9 x0 fh0 G' := fun G G' => by
      unfold kernelRun0_A.sl.HS2_3; rw [h175 G G', h160 G G', hX2 G G']
    have h192 : ∀ G G', kernelRun0_A.sl.v192 c i arg2 harg2 arg6 arg8 arg9 x0 fh0 G = kernelRun0_A.sl.v192 c i arg2 harg2 arg6 arg8 arg9 x0 fh0 G' := fun G G' => by
      unfold kernelRun0_A.sl.v192; rw [hX3 G G']
    have hX4 : ∀ G G', kernelRun0_A.sl.HS2_4 c i arg2 harg2 arg6 arg8 arg9 x0 fh0 G = kernelRun0_A.sl.HS2_4 c i arg2 harg2 arg6 arg8 arg9 x0 fh0 G' := fun G G' => by
      unfold kernelRun0_A.sl.HS2_4; rw [h192 G G', h160 G G', hX3 G G']
    have h209 : ∀ G G', kernelRun0_A.sl.v209 c i arg2 harg2 arg6 arg8 arg9 x0 fh0 G = kernelRun0_A.sl.v209 c i arg2 harg2 arg6 arg8 arg9 x0 fh0 G' := fun G G' => by
      unfold kernelRun0_A.sl.v209; rw [hX4 G G']
    have hr2 : ∀ G G', kernelRun0_A.sl.r_2 c i arg2 harg2 arg6 arg8 arg9 x0 fh0 G = kernelRun0_A.sl.r_2 c i arg2 harg2 arg6 arg8 arg9 x0 fh0 G' := fun G G' => by
      unfold kernelRun0_A.sl.r_2; rw [h160 G G']
    have hr4 : ∀ G G', kernelRun0_A.sl.r_4 c i arg2 harg2 arg6 arg8 arg9 x0 fh0 G = kernelRun0_A.sl.r_4 c i arg2 harg2 arg6 arg8 arg9 x0 fh0 G' := fun G G' => by
      unfold kernelRun0_A.sl.r_4; rw [h192 G G', h160 G G']
    have hA2 : ∀ G G', kernelRun0_A.sl.HS3_2 c i arg2 harg2 arg3 harg3 arg6 arg8 arg9 arg10 x0 x1 fh0 G = kernelRun0_A.sl.HS3_2 c i arg2 harg2 arg3 harg3 arg6 arg8 arg9 arg10 x0 x1 fh0 G' := fun G G' => by
      unfold kernelRun0_A.sl.HS3_2; rw [hr2 G G']
    have h182 : ∀ G G', kernelRun0_A.sl.v182 c i arg2 harg2 arg3 harg3 arg6 arg8 arg9 arg10 x0 x1 fh0 G = kernelRun0_A.sl.v182 c i arg2 harg2 arg3 harg3 arg6 arg8 arg9 arg10 x0 x1 fh0 G' := fun G G' => by
      unfold kernelRun0_A.sl.v182; rw [hA2 G G']
    have hA3 : ∀ G G', kernelRun0_A.sl.HS3_3 c i arg2 harg2 arg3 harg3 arg6 arg8 arg9 arg10 x0 x1 fh0 G = kernelRun0_A.sl.HS3_3 c i arg2 harg2 arg3 harg3 arg6 arg8 arg9 arg10 x0 x1 fh0 G' := fun G G' => by
      unfold kernelRun0_A.sl.HS3_3; rw [h175 G G', h160 G G', h182 G G', hA2 G G']
    have h199 : ∀ G G', kernelRun0_A.sl.v199 c i arg2 harg2 arg3 harg3 arg6 arg8 arg9 arg10 x0 x1 fh0 G = kernelRun0_A.sl.v199 c i arg2 harg2 arg3 harg3 arg6 arg8 arg9 arg10 x0 x1 fh0 G' := fun G G' => by
      unfold kernelRun0_A.sl.v199; rw [hA3 G G']
    have hA4 : ∀ G G', kernelRun0_A.sl.HS3_4 c i arg2 harg2 arg3 harg3 arg6 arg8 arg9 arg10 x0 x1 fh0 G = kernelRun0_A.sl.HS3_4 c i arg2 harg2 arg3 harg3 arg6 arg8 arg9 arg10 x0 x1 fh0 G' := fun G G' => by
      unfold kernelRun0_A.sl.HS3_4; rw [hr4 G G', h199 G G', hA3 G G']
    have h216 : ∀ G G', kernelRun0_A.sl.v216 c i arg2 harg2 arg3 harg3 arg6 arg8 arg9 arg10 x0 x1 fh0 G = kernelRun0_A.sl.v216 c i arg2 harg2 arg3 harg3 arg6 arg8 arg9 arg10 x0 x1 fh0 G' := fun G G' => by
      unfold kernelRun0_A.sl.v216; rw [hA4 G G']
    have hA5 : ∀ G G', kernelRun0_A.sl.HS3_5 c i arg2 harg2 arg3 harg3 arg6 arg8 arg9 arg10 x0 x1 fh0 G = kernelRun0_A.sl.HS3_5 c i arg2 harg2 arg3 harg3 arg6 arg8 arg9 arg10 x0 x1 fh0 G' := fun G G' => by
      unfold kernelRun0_A.sl.HS3_5; rw [h209 G G', h160 G G', h216 G G', hA4 G G']
    have h226 : ∀ G G', kernelRun0_A.sl.v226 c i arg2 harg2 arg3 harg3 arg6 arg8 arg9 arg10 x0 x1 fh0 G = kernelRun0_A.sl.v226 c i arg2 harg2 arg3 harg3 arg6 arg8 arg9 arg10 x0 x1 fh0 G' := fun G G' => by
      unfold kernelRun0_A.sl.v226; rw [hA5 G G']
    have hr5 : ∀ G G', kernelRun0_A.sl.r_5 c i arg2 harg2 arg3 harg3 arg4 harg4 arg6 arg8 arg9 arg10 x0 x1 x2 fh0 G = kernelRun0_A.sl.r_5 c i arg2 harg2 arg3 harg3 arg4 harg4 arg6 arg8 arg9 arg10 x0 x1 x2 fh0 G' := fun G G' => by
      unfold kernelRun0_A.sl.r_5; rw [h226 G G']
    -- The output buffer's one piece, stated over contents fixed outside the run.
    rw [hr5 fs0 (View.junk (Val := Elt F) arg6.view)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.KernelIdeal.Body

end
-- ==== Proof.BodyFrameKernelIdeal.lean ====
/-
  The frame of the program, from the body's run.

  The launch stages a block of the signal, the weights and the bias row in staging buffers, calls the body at each
  of the eight grid points (one batch each), and writes the output's staging buffer back to its block of the result.
  Here: the body's one store covers the output's staging buffer, so what the buffer holds after the body is the
  store's payload read back (`out0_A_3`, `outsAt0`); the proof data of the pipeline (the arrays as the region finds
  them; after the body each input's buffer at its block and the output's at that payload; the invariant that hands
  the body its scratch buffers, its two transfer counters at zero and the operator in main memory, and takes them
  back); the body's obligation at a generic point, discharged by the run; the run of the whole program; and the frame:
  every execution terminates without a fault and leaves the argument arrays unchanged.
-/
import proofs.«102626_j66554813219094_2_alg».proof.Proof.BodyRunKernelIdeal

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 3 tile its block (1 store of `S1x2048x8`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x2048x8 .f32) (harg2 : arg2.IsWhole) (arg3 : Memref sig .tc .vmem S5x8x8 .f32) (harg3 : arg3.IsWhole) (arg4 : Memref sig .tc .vmem S1x8 .f32) (harg4 : arg4.IsWhole) (arg5 : Memref sig .tc .vmem S1x2048x8 .f32) (harg5 : arg5.IsWhole) (arg6 : Memref sig .tc .vmem S2x256x2048 .f32) (harg6 : arg6.IsWhole) (arg8 : Memref sig .tc .vmem S2048x2048 .bf16) (harg8 : arg8.IsWhole) (arg9 : Memref sig .tc .vmem S2048x8 .f32) (harg9 : arg9.IsWhole) (arg10 : Memref sig .tc .vmem S2048x8 .f32) (harg10 : arg10.IsWhole)
    (x0 : Vec F S1x2048x8 .f32) (x1 : Vec F S5x8x8 .f32) (x2 : Vec F S1x8 .f32) (fh0 : HbBuf0 (F := F) c hbM0_0) (y : S1x2048x8.Idx) :
    ∃ pc ∈ (kernelRun0_A c i arg2 harg2 arg3 harg3 arg4 harg4 arg5 harg5 arg6 harg6 arg8 harg8 arg9 harg9 arg10 harg10 x0 x1 x2 fh0).1, y ∈ pc.1.set :=
  View.cover_of_tiledL (kernelRun0_A c i arg2 harg2 arg3 harg3 arg4 harg4 arg5 harg5 arg6 harg6 arg8 harg8 arg9 harg9 arg10 harg10 x0 x1 x2 fh0).1 S1x2048x8.size (by sl_kernel_rfl) y

/-- What the run leaves in output 3's staging buffer: its pieces read back over junk. -/
def out0_A_3 (c : Dev nD) (i : grid0.Coords) (arg2 : Memref sig .tc .vmem S1x2048x8 .f32) (harg2 : arg2.IsWhole) (arg3 : Memref sig .tc .vmem S5x8x8 .f32) (harg3 : arg3.IsWhole) (arg4 : Memref sig .tc .vmem S1x8 .f32) (harg4 : arg4.IsWhole) (arg5 : Memref sig .tc .vmem S1x2048x8 .f32) (harg5 : arg5.IsWhole) (arg6 : Memref sig .tc .vmem S2x256x2048 .f32) (harg6 : arg6.IsWhole) (arg8 : Memref sig .tc .vmem S2048x2048 .bf16) (harg8 : arg8.IsWhole) (arg9 : Memref sig .tc .vmem S2048x8 .f32) (harg9 : arg9.IsWhole) (arg10 : Memref sig .tc .vmem S2048x8 .f32) (harg10 : arg10.IsWhole)
    (x0 : Vec F S1x2048x8 .f32) (x1 : Vec F S5x8x8 .f32) (x2 : Vec F S1x8 .f32) (fh0 : HbBuf0 (F := F) c hbM0_0) : Vec F S1x2048x8 .f32 :=
  VO0_3.read (Elt F) (VO0_3.writes (Elt F) VO0_3.junk (kernelRun0_A c i arg2 harg2 arg3 harg3 arg4 harg4 arg5 harg5 arg6 harg6 arg8 harg8 arg9 harg9 arg10 harg10 x0 x1 x2 fh0).1)

/-! ## What the outputs hold after each point -/

/-- What the outputs' staging buffers hold after the body at point `t`: the run's contents at
    the point's memrefs and input blocks. -/
def outsAt0 (c : Dev nD) (t : Fin cfg0.N) : Vec F S1x2048x8 .f32 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (V m c main_arg1)

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_3
  iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩⟩
  iapply ((kernelRun0_A c (grid0.coords t) _ _ _ _ _ _ _ _ _ _ _ _ _ _ _ _ (iblk m c 0 t) (iblk m c 1 t) (iblk m c 2 t) (V m c main_arg1)).2 W _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [HW]; · iexact HW
  iintro ⟨H0, H1, H2, ⟨%e3, H3⟩, HS0, HS1, HS2, HS3, Hq0, Hq1, Hh0, ⟨%W', HW'⟩⟩
  isplitl [HS0 HS1 HS2 HS3 Hg Hq0 Hq1 Hh0]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- `θ_run_frame_dma`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- info: 'Cert.KernelIdeal.Body.run_main' depends on axioms: [propext, Classical.choice, Quot.sound] -/
#guard_msgs in #print axioms run_main

/-- The frame: from any memory with zero counters every weakly fair execution of the program terminates, nothing
    faults, and the four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The graph filter as one function of its argument arrays, over the extended reals.

  For each batch `b` the shift operator `S(b)` (2048 × 2048) acts on the signal `x(b)` (2048 nodes × 8 features) through
  its transpose: `(Sᵀ X)(n, f) = ∑ₘ S(m, n) · X(m, f)`. The filter has five taps: tap `k` multiplies the `k`-times
  shifted signal by the 8 × 8 weight matrix `W(k)`, the taps are added in the order `k = 0, 1, 2, 3, 4`, and the bias of
  the output feature is added last:

    y(b, n, g) = ((((T₀ + T₁) + T₂) + T₃) + T₄)(b, n, g) + bias(g),   Tₖ(b, n, g) = ∑_f ((Sᵀ)ᵏ x)(b, n, f) · W(k, f, g).

  The same objects are also written for ONE batch (two-dimensional arrays), and the two forms are related: the
  per-batch shift and tap of the batch's slices are the slices of the whole arrays' shift and tap. No law of
  arithmetic is used here: the sums are the same sums, term by term.
-/
import Idealize.ShloMosaic.PureOps.Ideal
import Idealize.ShloMosaic.Lib.ValueIdx

noncomputable section

namespace Cert.GraphFilter

open Idealize.ShloMosaic Idealize.ShloMosaic.ValueIdx

/-- Signals: batch × node × feature. -/
abbrev Sig3 : Shape := ⟨3, ![8, 2048, 8]⟩
/-- Shift operators: batch × node × node. -/
abbrev Op3 : Shape := ⟨3, ![8, 2048, 2048]⟩
/-- Weights: tap × input feature × output feature. -/
abbrev Wt3 : Shape := ⟨3, ![5, 8, 8]⟩
/-- One batch's signal, operator, and one tap's weights. -/
abbrev Sig2 : Shape := ⟨2, ![2048, 8]⟩
abbrev Op2 : Shape := ⟨2, ![2048, 2048]⟩
abbrev Wt2 : Shape := ⟨2, ![8, 8]⟩

/-- The transposed shift of every batch: `(Sᵀ X)(b, n, f) = ∑ₘ S(b, m, n) · X(b, m, f)`. -/
def shift (S : Op3.Idx → EReal) (X : Sig3.Idx → EReal) : Sig3.Idx → EReal :=
  fun i => ∑ m : Fin 2048, S (ix3 (i 0) m (i 1)) * X (ix3 (i 0) m (i 2))

/-- Tap `k` of a signal: `(X W(k))(b, n, g) = ∑_f X(b, n, f) · W(k, f, g)`. -/
def tap (W : Wt3.Idx → EReal) (k : Fin 5) (X : Sig3.Idx → EReal) : Sig3.Idx → EReal :=
  fun i => ∑ f : Fin 8, X (ix3 (i 0) (i 1) f) * W (ix3 k f (i 2))

/-- The filter's output: the five taps of the successively shifted signal, added in order, then the bias. -/
def filter (x : Sig3.Idx → EReal) (S : Op3.Idx → EReal) (W : Wt3.Idx → EReal) (bias : (⟨1, ![8]⟩ : Shape).Idx → EReal) :
    Sig3.Idx → EReal :=
  fun i => tap W 0 x i + tap W 1 (shift S x) i + tap W 2 (shift S (shift S x)) i
    + tap W 3 (shift S (shift S (shift S x))) i + tap W 4 (shift S (shift S (shift S (shift S x)))) i + bias (ix1 (i 2))

/-! ## One batch -/

/-- Batch `b` of a signal, of the operator, and tap `k` of the weights, as two-dimensional arrays. -/
def sigAt (b : Fin 8) (X : Sig3.Idx → EReal) : Sig2.Idx → EReal := fun j => X (ix3 b (j 0) (j 1))
def opAt (b : Fin 8) (S : Op3.Idx → EReal) : Op2.Idx → EReal := fun j => S (ix3 b (j 0) (j 1))
def wtAt (k : Fin 5) (W : Wt3.Idx → EReal) : Wt2.Idx → EReal := fun j => W (ix3 k (j 0) (j 1))

/-- One batch's transposed shift: `(Sᵀ X)(n, f) = ∑ₘ S(m, n) · X(m, f)`. -/
def shift2 (Sb : Op2.Idx → EReal) (Xb : Sig2.Idx → EReal) : Sig2.Idx → EReal :=
  fun j => ∑ m : Fin 2048, Sb (ix2 m (j 0)) * Xb (ix2 m (j 1))

/-- One batch's tap: `(X Wk)(n, g) = ∑_f X(n, f) · Wk(f, g)`. -/
def tap2 (Wk : Wt2.Idx → EReal) (Xb : Sig2.Idx → EReal) : Sig2.Idx → EReal :=
  fun j => ∑ f : Fin 8, Xb (ix2 (j 0) f) * Wk (ix2 f (j 1))

/-- The shift of a batch's slices is the batch's slice of the shift. -/
theorem shift2_at (b : Fin 8) (S : Op3.Idx → EReal) (X : Sig3.Idx → EReal) :
    shift2 (opAt b S) (sigAt b X) = sigAt b (shift S X) := rfl

/-- The tap of a batch's slices is the batch's slice of the tap. -/
theorem tap2_at (b : Fin 8) (k : Fin 5) (W : Wt3.Idx → EReal) (X : Sig3.Idx → EReal) :
    tap2 (wtAt k W) (sigAt b X) = sigAt b (tap W k X) := rfl

/-- One batch of the filter's output, from the batch's slices: the per-batch taps added in order, then the bias. -/
theorem filter_at (b : Fin 8) (x : Sig3.Idx → EReal) (S : Op3.Idx → EReal) (W : Wt3.Idx → EReal)
    (bias : (⟨1, ![8]⟩ : Shape).Idx → EReal) (j : Sig2.Idx) :
    tap2 (wtAt 0 W) (sigAt b x) j
      + tap2 (wtAt 1 W) (shift2 (opAt b S) (sigAt b x)) j
      + tap2 (wtAt 2 W) (shift2 (opAt b S) (shift2 (opAt b S) (sigAt b x))) j
      + tap2 (wtAt 3 W) (shift2 (opAt b S) (shift2 (opAt b S) (shift2 (opAt b S) (sigAt b x)))) j
      + tap2 (wtAt 4 W) (shift2 (opAt b S) (shift2 (opAt b S) (shift2 (opAt b S) (shift2 (opAt b S) (sigAt b x))))) j
      + bias (ix1 (j 1))
    = filter x S W bias (ix3 b (j 0) (j 1)) := by
  simp only [shift2_at, tap2_at]
  rfl

end Cert.GraphFilter

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.KernelOps.lean ====
/-
  The kernel's two matrix products, per batch, over the extended reals.

  Inside one grid point the kernel holds one batch: the operator `Sb` (2048 × 2048), the signal `Xb` (2048 × 8) and
  the tap weights `Wk` (8 × 8). Its shift step contracts the FIRST axis of `Sb` with the first axis of `Xb` — the
  product with the transpose, `(Sbᵀ Xb)(n, f) = ∑ₘ Sb(m, n) · Xb(m, f)`, taken without forming a transpose — and its
  tap step is the plain product `(Xb Wk)(n, g) = ∑_f Xb(n, f) · Wk(f, g)`. Both are accumulated into a zero
  matrix, so each entry is exactly that sum.
-/
import proofs.«102626_j66554813219094_2_alg».proof.Proof.Gen.KernelIdeal
import proofs.«102626_j66554813219094_2_alg».proof.Proof.Spec
import proofs.«102626_j66554813219094_2_alg».proof.Proof.LibGram

noncomputable section

namespace Cert.GraphFilter.Kern

open Cert.KernelIdeal Idealize.ShloMosaic Idealize.ShloMosaic.ValueIdx Cert.GraphFilter

/-! ## Which operand entries an output entry pairs with a contraction position -/

/-- Shift step, left operand: its second coordinate is the output's row (the first is the contraction position). -/
theorem shift_lhs_1 (j : S2048x8.Idx) (q : dot_S2048x2048_S2048x8_S2048x8_0_0_1_1_n_n.contr.Idx) :
    (dot_S2048x2048_S2048x8_S2048x8_0_0_1_1_n_n.lhsIdx j q 1).val = (j 0).val := by
  unfold DotDims.lhsIdx
  rw [dif_neg (show ¬(1 : Fin S2048x2048.rank) ∈ dot_S2048x2048_S2048x8_S2048x8_0_0_1_1_n_n.lhsBatch by decide),
    dif_pos (show (1 : Fin S2048x2048.rank) ∈ dot_S2048x2048_S2048x8_S2048x8_0_0_1_1_n_n.lhsNonContracting by decide)]
  rfl

/-- Shift step, right operand: its second coordinate is the output's column. -/
theorem shift_rhs_1 (j : S2048x8.Idx) (q : dot_S2048x2048_S2048x8_S2048x8_0_0_1_1_n_n.contr.Idx) :
    (dot_S2048x2048_S2048x8_S2048x8_0_0_1_1_n_n.rhsIdx j q 1).val = (j 1).val := by
  unfold DotDims.rhsIdx
  rw [dif_neg (show ¬(1 : Fin S2048x8.rank) ∈ dot_S2048x2048_S2048x8_S2048x8_0_0_1_1_n_n.rhsBatch by decide),
    dif_pos (show (1 : Fin S2048x8.rank) ∈ dot_S2048x2048_S2048x8_S2048x8_0_0_1_1_n_n.rhsNonContracting by decide)]
  rfl

/-- Tap step, left operand: its first coordinate is the output's row. -/
theorem tap_lhs_0 (j : S2048x8.Idx) (q : dot_S2048x8_S8x8_S2048x8_1_0_0_1_n_n.contr.Idx) :
    (dot_S2048x8_S8x8_S2048x8_1_0_0_1_n_n.lhsIdx j q 0).val = (j 0).val := by
  unfold DotDims.lhsIdx
  rw [dif_neg (show ¬(0 : Fin S2048x8.rank) ∈ dot_S2048x8_S8x8_S2048x8_1_0_0_1_n_n.lhsBatch by decide),
    dif_pos (show (0 : Fin S2048x8.rank) ∈ dot_S2048x8_S8x8_S2048x8_1_0_0_1_n_n.lhsNonContracting by decide)]
  rfl

/-- Tap step, right operand: its second coordinate is the output's column. -/
theorem tap_rhs_1 (j : S2048x8.Idx) (q : dot_S2048x8_S8x8_S2048x8_1_0_0_1_n_n.contr.Idx) :
    (dot_S2048x8_S8x8_S2048x8_1_0_0_1_n_n.rhsIdx j q 1).val = (j 1).val := by
  unfold DotDims.rhsIdx
  rw [dif_neg (show ¬(1 : Fin S8x8.rank) ∈ dot_S2048x8_S8x8_S2048x8_1_0_0_1_n_n.rhsBatch by decide),
    dif_pos (show (1 : Fin S8x8.rank) ∈ dot_S2048x8_S8x8_S2048x8_1_0_0_1_n_n.rhsNonContracting by decide)]
  rfl

/-! ## The two products -/

/-- The shift step: the product of the operator's transpose with the signal, accumulated into zero. -/
theorem matmul_shift (Sb : FVec Ideal S2048x2048 .bf16) (Xb : FVec Ideal S2048x8 .bf16) :
    matmul dot_S2048x2048_S2048x8_S2048x8_0_0_1_1_n_n none Sb Xb (constant S2048x8 .f32 0x00000000#32) = shift2 Sb Xb := by
  funext j
  obtain ⟨n, f, rfl⟩ : ∃ (n : Fin 2048) (f : Fin 8), j = ix2 n f := ⟨j 0, j 1, eq_ix2 j⟩
  refine (Cert.Lib.Gram.matmul_zero_single_apply dot_S2048x2048_S2048x8_S2048x8_0_0_1_1_n_n 2048 rfl rfl none Sb Xb
    (ix2 n f) (fun m => ix2 m n) (fun m => ix2 m f) (fun m => ?_) (fun m => ?_)).trans rfl
  · have hk := ValueIdx.contrEquiv1_symm_val dot_S2048x2048_S2048x8_S2048x8_0_0_1_1_n_n 2048 rfl rfl m
    refine funext fun a => Fin.ext ?_
    match a with
    | ⟨0, _⟩ => exact (dot_S2048x2048_S2048x8_S2048x8_0_0_1_1_n_n.lhsIdx_val_of_single rfl _ _).trans hk
    | ⟨1, _⟩ => exact shift_lhs_1 _ _
  · have hk := ValueIdx.contrEquiv1_symm_val dot_S2048x2048_S2048x8_S2048x8_0_0_1_1_n_n 2048 rfl rfl m
    refine funext fun a => Fin.ext ?_
    match a with
    | ⟨0, _⟩ => exact (dot_S2048x2048_S2048x8_S2048x8_0_0_1_1_n_n.rhsIdx_val_of_single rfl _ _).trans hk
    | ⟨1, _⟩ => exact shift_rhs_1 _ _

/-- The tap step: the product of the signal with one tap's weights, accumulated into zero. -/
theorem matmul_tap (Xb : FVec Ideal S2048x8 .bf16) (Wk : FVec Ideal S8x8 .bf16) :
    matmul dot_S2048x8_S8x8_S2048x8_1_0_0_1_n_n none Xb Wk (constant S2048x8 .f32 0x00000000#32) = tap2 Wk Xb := by
  funext j
  obtain ⟨n, g, rfl⟩ : ∃ (n : Fin 2048) (g : Fin 8), j = ix2 n g := ⟨j 0, j 1, eq_ix2 j⟩
  refine (Cert.Lib.Gram.matmul_zero_single_apply dot_S2048x8_S8x8_S2048x8_1_0_0_1_n_n 8 rfl rfl none Xb Wk
    (ix2 n g) (fun f => ix2 n f) (fun f => ix2 f g) (fun f => ?_) (fun f => ?_)).trans rfl
  · have hk := ValueIdx.contrEquiv1_symm_val dot_S2048x8_S8x8_S2048x8_1_0_0_1_n_n 8 rfl rfl f
    refine funext fun a => Fin.ext ?_
    match a with
    | ⟨0, _⟩ => exact tap_lhs_0 _ _
    | ⟨1, _⟩ => exact (dot_S2048x8_S8x8_S2048x8_1_0_0_1_n_n.lhsIdx_val_of_single rfl _ _).trans hk
  · have hk := ValueIdx.contrEquiv1_symm_val dot_S2048x8_S8x8_S2048x8_1_0_0_1_n_n 8 rfl rfl f
    refine funext fun a => Fin.ext ?_
    match a with
    | ⟨0, _⟩ => exact (dot_S2048x8_S8x8_S2048x8_1_0_0_1_n_n.rhsIdx_val_of_single rfl _ _).trans hk
    | ⟨1, _⟩ => exact tap_rhs_1 _ _

end Cert.GraphFilter.Kern

end
-- ==== Proof.PayloadValues.lean ====
/-
  The body's arithmetic, step by step, over the extended reals.

  Between its loads and stores the body computes: the operator's rows converted for the matrix unit (a change of
  format: the identity over the extended reals); tap 0 of the signal; then four times a shift of the current signal
  and the tap of the shifted signal added to the running sum; and last the bias row spread over the nodes and added.
  Each step is one function of the values loaded before it. Here each is read as the per-batch `shift2` / `tap2`
  of its operands: a same-shape re-lay and a change of format are the identity, a product into zero is the plain sum.
-/
import proofs.«102626_j66554813219094_2_alg».proof.Proof.Gen.KernelIdeal.Skeleton
import proofs.«102626_j66554813219094_2_alg».proof.Proof.KernelOps
import Idealize.ShloMosaic.Lib.Pipeline.Value
import Idealize.ShloMosaic.Lib.ValueLayout

noncomputable section

namespace Cert.GraphFilter.Kern

open Cert.KernelIdeal Cert.KernelIdeal.Gen Idealize.ShloMosaic Idealize.ShloMosaic.ValueIdx Cert.GraphFilter

/-- A change of float format is the identity over the extended reals. -/
theorem truncf_id {s : Shape} {φ ψ : FTy} (a : FVec Ideal s φ) (h : ψ.bits < φ.bits) :
    (truncf ψ a h : FVec Ideal s ψ) = a := rfl

/-- One tap's weights as the body uses them: a 1 × 8 × 8 slab of the stack, flattened. -/
abbrev slab (w : Vec Ideal S1x8x8 .f32) : FVec Ideal S8x8 .f32 := shapeCast S8x8 w shapeCasts_S1x8x8_S8x8

/-- The signal block, flattened and kept in scratch. -/
theorem pay12_eq (x : Vec Ideal S1x2048x8 .f32) :
    k0_pay12 (F := Ideal) x = shapeCast S2048x8 x shapeCasts_S1x2048x8_S2048x8 := by
  unfold k0_pay12
  exact shapeCast_self _ _

/-- Tap 0. -/
theorem pay13_eq (x : Vec Ideal S2048x8 .f32) (w : Vec Ideal S1x8x8 .f32) :
    k0_pay13 (F := Ideal) x w = tap2 (slab w) x := by
  unfold k0_pay13
  dsimp only
  rw [shapeCast_self]
  exact matmul_tap _ _

/-- A shift of the signal kept in scratch. -/
theorem pay14_eq (x : Vec Ideal S2048x8 .f32) (S : Vec Ideal S2048x2048 .bf16) :
    k0_pay14 (F := Ideal) x S = shift2 S x := by
  unfold k0_pay14
  exact matmul_shift _ _

theorem pay15_eq (x : Vec Ideal S2048x8 .f32) (S : Vec Ideal S2048x2048 .bf16) :
    k0_pay15 (F := Ideal) x S = shift2 S x := by
  unfold k0_pay15
  rw [shapeCast_self, pay14_eq]

theorem pay16_eq (x : Vec Ideal S2048x8 .f32) (S : Vec Ideal S2048x2048 .bf16) :
    k0_pay16 (F := Ideal) x S = shift2 S x := by
  unfold k0_pay16
  rw [pay14_eq]
  rfl

theorem pay17_eq (w : Vec Ideal S1x8x8 .f32) : k0_pay17 (F := Ideal) w = slab w := rfl

/-- The running sum plus the tap of a shifted signal (the accumulator the product is taken into is zero). -/
theorem pay18_eq (acc : Vec Ideal S2048x8 .f32) (x : FVec Ideal S2048x8 .bf16) (w : FVec Ideal S8x8 .bf16) :
    k0_pay18 (F := Ideal) acc x w (constant S2048x8 .f32 0x00000000#32) = addf acc (tap2 w x) := by
  unfold k0_pay18
  dsimp only
  rw [shapeCast_self, matmul_tap]

theorem pay19_eq (x : Vec Ideal S2048x8 .f32) (S : Vec Ideal S2048x2048 .bf16) :
    k0_pay19 (F := Ideal) x S = shift2 S x := by
  unfold k0_pay19
  exact matmul_shift _ _

theorem pay20_eq (x : Vec Ideal S2048x8 .f32) (S : Vec Ideal S2048x2048 .bf16) :
    k0_pay20 (F := Ideal) x S = shift2 S x := by
  unfold k0_pay20
  rw [shapeCast_self, pay19_eq]

theorem pay21_eq (x : Vec Ideal S2048x8 .f32) (S : Vec Ideal S2048x2048 .bf16) (acc : Vec Ideal S2048x8 .f32)
    (w : Vec Ideal S1x8x8 .f32) :
    k0_pay21 (F := Ideal) x S acc w = addf acc (tap2 (slab w) (shift2 S x)) := by
  unfold k0_pay21
  dsimp only
  rw [shapeCast_self, pay19_eq]
  exact congrArg (addf acc) (matmul_tap _ _)

theorem pay22_eq (x : Vec Ideal S2048x8 .f32) (S : Vec Ideal S2048x2048 .bf16) :
    k0_pay22 (F := Ideal) x S = shift2 S x := by
  unfold k0_pay22
  exact matmul_shift _ _

theorem pay23_eq (x : Vec Ideal S2048x8 .f32) (S : Vec Ideal S2048x2048 .bf16) :
    k0_pay23 (F := Ideal) x S = shift2 S x := by
  unfold k0_pay23
  rw [shapeCast_self, pay22_eq]

theorem pay24_eq (x : FVec Ideal S2048x8 .f32) (acc : Vec Ideal S2048x8 .f32) (w : Vec Ideal S1x8x8 .f32) :
    k0_pay24 (F := Ideal) x acc w = addf acc (tap2 (slab w) x) := by
  unfold k0_pay24
  dsimp only
  rw [shapeCast_self]
  exact congrArg (addf acc) (matmul_tap _ _)

theorem pay25_eq (x : Vec Ideal S2048x8 .f32) (S : Vec Ideal S2048x2048 .bf16) :
    k0_pay25 (F := Ideal) x S = shift2 S x := by
  unfold k0_pay25
  exact matmul_shift _ _

theorem pay26_eq (x : Vec Ideal S2048x8 .f32) (S : Vec Ideal S2048x2048 .bf16) :
    k0_pay26 (F := Ideal) x S = shift2 S x := by
  unfold k0_pay26
  rw [shapeCast_self, pay25_eq]

theorem pay27_eq (x : Vec Ideal S2048x8 .f32) (S : Vec Ideal S2048x2048 .bf16) (acc : Vec Ideal S2048x8 .f32)
    (w : Vec Ideal S1x8x8 .f32) :
    k0_pay27 (F := Ideal) x S acc w = addf acc (tap2 (slab w) (shift2 S x)) := by
  unfold k0_pay27
  dsimp only
  rw [shapeCast_self, pay25_eq]
  exact congrArg (addf acc) (matmul_tap _ _)

/-- The bias row spread over the nodes and added: at `(n, g)` the sum's entry plus the row's entry `g`. -/
theorem pay28_apply (acc : Vec Ideal S2048x8 .f32) (b : Vec Ideal S1x8 .f32) (n : Fin 2048) (g : Fin 8) :
    k0_pay28 (F := Ideal) acc b (ix2 n g) = acc (ix2 n g) + b (ix2 (0 : Fin 1) g) := by
  unfold k0_pay28
  rw [shapeCast_self]
  show acc (ix2 n g) + broadcastTo S2048x8 b broadcasts_S1x8_S2048x8 (ix2 n g) = _
  rw [broadcastTo_1b_ab_apply]

/-- One 256-row chunk of the operator on its way into the resident copy: flattened, format changed, re-laid at its
    own shape — the chunk itself, entry by entry. -/
theorem chunk_apply (v : Vec Ideal S1x256x2048 .f32) (r : Fin 256) (q : Fin 2048) :
    shapeCast S256x2048 v shapeCasts_S1x256x2048_S256x2048 (ix2 r q) = v (ix3 (0 : Fin 1) r q) :=
  shapeCast_1ab_ab_apply v _ r q

theorem pay2_eq (v : Vec Ideal S1x256x2048 .f32) : k0_pay2 (F := Ideal) v = shapeCast S256x2048 v shapeCasts_S1x256x2048_S256x2048 := by
  unfold k0_pay2; exact shapeCast_self _ _
theorem pay3_eq (v : Vec Ideal S1x256x2048 .f32) : k0_pay3 (F := Ideal) v = shapeCast S256x2048 v shapeCasts_S1x256x2048_S256x2048 := by
  unfold k0_pay3; exact shapeCast_self _ _
theorem pay4_eq (v : Vec Ideal S1x256x2048 .f32) : k0_pay4 (F := Ideal) v = shapeCast S256x2048 v shapeCasts_S1x256x2048_S256x2048 := by
  unfold k0_pay4; exact shapeCast_self _ _
theorem pay5_eq (v : Vec Ideal S1x256x2048 .f32) : k0_pay5 (F := Ideal) v = shapeCast S256x2048 v shapeCasts_S1x256x2048_S256x2048 := by
  unfold k0_pay5; exact shapeCast_self _ _
theorem pay6_eq (v : Vec Ideal S1x256x2048 .f32) : k0_pay6 (F := Ideal) v = shapeCast S256x2048 v shapeCasts_S1x256x2048_S256x2048 := by
  unfold k0_pay6; exact shapeCast_self _ _
theorem pay7_eq (v : Vec Ideal S1x256x2048 .f32) : k0_pay7 (F := Ideal) v = shapeCast S256x2048 v shapeCasts_S1x256x2048_S256x2048 := rfl
theorem pay8_eq (v : FVec Ideal S256x2048 .bf16) : k0_pay8 (F := Ideal) v = v := by
  unfold k0_pay8; exact shapeCast_self _ _
theorem pay9_eq (v : Vec Ideal S1x256x2048 .f32) : k0_pay9 (F := Ideal) v = shapeCast S256x2048 v shapeCasts_S1x256x2048_S256x2048 := by
  unfold k0_pay9; exact shapeCast_self _ _
theorem pay10_eq (v : Vec Ideal S1x256x2048 .f32) : k0_pay10 (F := Ideal) v = shapeCast S256x2048 v shapeCasts_S1x256x2048_S256x2048 := rfl
theorem pay11_eq (v : FVec Ideal S256x2048 .bf16) : k0_pay11 (F := Ideal) v = v := by
  unfold k0_pay11; exact shapeCast_self _ _

/-- The last store's payload: the result re-laid with a leading unit axis. -/
theorem pay1_apply (v : FVec Ideal S2048x8 .f32) (u : Fin 1) (n : Fin 2048) (g : Fin 8) :
    k0_pay1 (F := Ideal) v (ix3 u n g) = v (ix2 n g) :=
  shapeCast_ab_1ab_apply v _ u n g

end Cert.GraphFilter.Kern

end
-- ==== Proof.OperatorCopy.lean ====
/-
  The operator, as the body holds it.

  The body's resident copy of its batch's operator is filled 256 rows at a time: chunk `k` (`k = 0 … 7`) is
  transferred from rows `256 k … 256 k + 255` of batch `b` of the operator array into a staging slot, loaded from the
  slot, and stored at rows `256 k …` of the resident copy. A slot loaded after its transfer has landed holds the
  transferred rows; the eight stored chunks tile the copy; so the copy, read whole, is the batch's operator:
  entry `(m, n)` is `S(b, m, n)`.
-/
import proofs.«102626_j66554813219094_2_alg».proof.Proof.BodyRunKernelIdeal
import proofs.«102626_j66554813219094_2_alg».proof.Proof.PayloadValues

noncomputable section

namespace Cert.GraphFilter.Kern

open Cert.KernelIdeal Cert.KernelIdeal.Gen Cert.KernelIdeal.Body
open Idealize.ShloMosaic Idealize.ShloMosaic.ValueIdx Cert.GraphFilter Cert.Lib.Stage

/-! ## Row-major matching between a slot (1 × 256 × 2048) and a chunk (256 × 2048) -/

theorem chunk_of_slot {a b : ℕ} (h : (⟨2, ![a, b]⟩ : Shape).numel = (⟨3, ![1, a, b]⟩ : Shape).numel) (u : Fin 1) (r : Fin a) (q : Fin b) :
    (Shape.reshapeEquiv h).symm (ix3 u r q) = ix2 r q := by
  rw [Shape.reshapeEquiv_symm]
  refine Shape.reshapeEquiv_eq_of_rowMajor _ ?_
  have hu : u.val = 0 := by omega
  rw [Shape.rowMajor_val_two, Shape.rowMajor_val_three]
  show r.val * b + q.val = (u.val * a + r.val) * b + q.val
  rw [hu, Nat.zero_mul, Nat.zero_add]

theorem slot_of_chunk {a b : ℕ} (h : (⟨2, ![a, b]⟩ : Shape).numel = (⟨3, ![1, a, b]⟩ : Shape).numel) (r : Fin a) (q : Fin b) :
    Shape.reshapeEquiv h (ix2 r q) = ix3 (0 : Fin 1) r q := by
  refine Shape.reshapeEquiv_eq_of_rowMajor _ ?_
  rw [Shape.rowMajor_val_two, Shape.rowMajor_val_three]
  show (0 * a + r.val) * b + q.val = r.val * b + q.val
  rw [Nat.zero_mul, Nat.zero_add]

/-! ## The two staging slots are disjoint -/

abbrev slot0 : Rect S2x256x2048 := Rect.unit (s := S2x256x2048) ![0, 0, 0] S1x256x2048.size Facts₀.inb_S2x256x2048_S1x256x2048_0_0_0
abbrev slot1 : Rect S2x256x2048 := Rect.unit (s := S2x256x2048) ![1, 0, 0] S1x256x2048.size Facts₀.inb_S2x256x2048_S1x256x2048_1_0_0

theorem slot0_not_mem_slot1 (x : slot0.shape.Idx) : slot0.emb x ∉ slot1.set := by
  rw [Rect.mem_set_unit]
  intro h
  have h0 : (1 : ℕ) ≤ 0 + 1 * (x 0).val := (h 0).1
  have hx : (x 0).val < 1 := (x 0).isLt
  omega

theorem slot1_not_mem_slot0 (x : slot1.shape.Idx) : slot1.emb x ∉ slot0.set := by
  rw [Rect.mem_set_unit]
  intro h
  have h0 : 1 + 1 * (x 0).val < 0 + 1 := (h 0).2
  omega

/-- A load through a rectangle after pieces whose newest is at a rectangle disjoint from it reads the older pieces. -/
theorem readAt_skip {sig : RefSig} {κ : Kind} {sp : Space} {s : Shape} {e : EltTy} {Val : EltTy → Type}
    (v : View sig κ sp s e) (f : v.ty.Contents Val) (r r' : Rect s) (w' : r'.shape.Idx → Val e)
    (L : List (View.Piece Val s e)) (hd : ∀ x : r.shape.Idx, r.emb x ∉ r'.set) :
    v.readAt Val r.toLoadRect (v.writes Val f (⟨r', w'⟩ :: L)) = v.readAt Val r.toLoadRect (v.writes Val f L) :=
  readAt_writes_skip v f r ⟨r', w'⟩ L hd

/-! ## A slot loaded after its transfer has landed holds the transferred rows -/

section
variable (c : Dev nD) (i : grid0.Coords) (arg6 : Memref sig .tc .vmem S2x256x2048 .f32) (fh0 : HbBuf0 (F := Ideal) c hbM0_0)
  (G : BufTy.Contents (Elt Ideal) arg6.view.ty) (r : Fin 256) (q : Fin 2048)

theorem v18_apply : kernelRun0_A.sl.v18 (F := Ideal) c i arg6 fh0 G (ix3 (0 : Fin 1) r q) = kernelRun0_A.sl.dma0 c i fh0 (ix2 r q) := by
  unfold kernelRun0_A.sl.v18
  rw [writes_nil_eq arg6.view G]
  simp only [Memref.view_squeeze, Memref.view_slice, write_reshaped_slice_cons]
  rw [readAt_skip _ _ slot0 slot1 _ _ slot0_not_mem_slot1, readAt_writes_head]
  exact congrArg _ (chunk_of_slot _ 0 r q)

theorem v36_apply : kernelRun0_A.sl.v36 (F := Ideal) c i arg6 fh0 G (ix3 (0 : Fin 1) r q) = kernelRun0_A.sl.dma0_1 c i fh0 (ix2 r q) := by
  unfold kernelRun0_A.sl.v36
  rw [writes_nil_eq arg6.view G]
  simp only [Memref.view_squeeze, Memref.view_slice, write_reshaped_slice_cons]
  rw [readAt_skip _ _ slot1 slot0 _ _ slot1_not_mem_slot0, readAt_writes_head]
  exact congrArg _ (chunk_of_slot _ 0 r q)

theorem v54_apply : kernelRun0_A.sl.v (F := Ideal) c i arg6 fh0 G (ix3 (0 : Fin 1) r q) = kernelRun0_A.sl.dma3 c i fh0 (ix2 r q) := by
  unfold kernelRun0_A.sl.v
  rw [writes_nil_eq arg6.view G]
  simp only [Memref.view_squeeze, Memref.view_slice, write_reshaped_slice_cons]
  rw [readAt_skip _ _ slot0 slot1 _ _ slot0_not_mem_slot1, readAt_writes_head]
  exact congrArg _ (chunk_of_slot _ 0 r q)

theorem v72_apply : kernelRun0_A.sl.v72 (F := Ideal) c i arg6 fh0 G (ix3 (0 : Fin 1) r q) = kernelRun0_A.sl.dma6 c i fh0 (ix2 r q) := by
  unfold kernelRun0_A.sl.v72
  rw [writes_nil_eq arg6.view G]
  simp only [Memref.view_squeeze, Memref.view_slice, write_reshaped_slice_cons]
  rw [readAt_skip _ _ slot1 slot0 _ _ slot1_not_mem_slot0, readAt_writes_head]
  exact congrArg _ (chunk_of_slot _ 0 r q)

theorem v90_apply : kernelRun0_A.sl.v90 (F := Ideal) c i arg6 fh0 G (ix3 (0 : Fin 1) r q) = kernelRun0_A.sl.dma9 c i fh0 (ix2 r q) := by
  unfold kernelRun0_A.sl.v90
  rw [writes_nil_eq arg6.view G]
  simp only [Memref.view_squeeze, Memref.view_slice, write_reshaped_slice_cons]
  rw [readAt_skip _ _ slot0 slot1 _ _ slot0_not_mem_slot1, readAt_writes_head]
  exact congrArg _ (chunk_of_slot _ 0 r q)

theorem v108_apply : kernelRun0_A.sl.v108 (F := Ideal) c i arg6 fh0 G (ix3 (0 : Fin 1) r q) = kernelRun0_A.sl.dma12 c i fh0 (ix2 r q) := by
  unfold kernelRun0_A.sl.v108
  rw [writes_nil_eq arg6.view G]
  simp only [Memref.view_squeeze, Memref.view_slice, write_reshaped_slice_cons]
  rw [readAt_skip _ _ slot1 slot0 _ _ slot1_not_mem_slot0, readAt_writes_head]
  exact congrArg _ (chunk_of_slot _ 0 r q)

theorem v126_apply : kernelRun0_A.sl.v126 (F := Ideal) c i arg6 fh0 G (ix3 (0 : Fin 1) r q) = kernelRun0_A.sl.dma15 c i fh0 (ix2 r q) := by
  unfold kernelRun0_A.sl.v126
  rw [writes_nil_eq arg6.view G]
  simp only [Memref.view_squeeze, Memref.view_slice, write_reshaped_slice_cons]
  rw [readAt_skip _ _ slot0 slot1 _ _ slot0_not_mem_slot1, readAt_writes_head]
  exact congrArg _ (chunk_of_slot _ 0 r q)

theorem v138_apply : kernelRun0_A.sl.v138 (F := Ideal) c i arg6 fh0 G (ix3 (0 : Fin 1) r q) = kernelRun0_A.sl.dma18 c i fh0 (ix2 r q) := by
  unfold kernelRun0_A.sl.v138
  rw [writes_nil_eq arg6.view G]
  simp only [Memref.view_squeeze, Memref.view_slice, write_reshaped_slice_cons]
  rw [readAt_writes_head]
  exact congrArg _ (chunk_of_slot _ 0 r q)

/-! ## What is transferred: rows of the batch's operator -/

/-- The operator array in main memory, as a function of (batch, row, column). -/
def opOf (fh0 : HbBuf0 (F := Ideal) c hbM0_0) : S8x2048x2048.Idx → EReal := fh0

/-- Reading the operator array through 256 rows of batch `i 0` from row `o`, re-laid as a 256 × 2048 matrix: entry
    `(r, q)` is the array's entry `(i 0, o + r, q)`. -/
theorem dma_read (off : Fin 3 → ℕ) (o : ℕ) (ho : o + 256 ≤ 2048) (hoff : off = ![(i 0).val, o, 0])
    (inb : ∀ a, off a + S1x256x2048.size a ≤ S8x2048x2048.size a)
    (hs : ∀ a, (Rect.unit (s := S8x2048x2048) off S1x256x2048.size inb).stride a = 1) (hq : S1x256x2048.Squeezes S256x2048) :
    ReadAs.same.apply (View.read (Elt Ideal) (((Memref.whole main_arg1).slice (Rect.unit (s := S8x2048x2048) off S1x256x2048.size inb) hs).squeeze S256x2048 hq).view fh0) (ix2 r q)
      = opOf c fh0 (ix3 (i 0) ⟨o + r.val, by omega⟩ q) := by
  subst hoff
  rw [ReadAs.apply_same, View.read_apply]
  simp only [Memref.view_squeeze, Memref.view_slice, View.emb_reshape, View.emb_slice, Function.Embedding.trans_apply,
    Equiv.coe_toEmbedding]
  generalize hx : Shape.reshapeEquiv _ (ix2 r q) = x
  have ex : x = ix3 (0 : Fin 1) r q := by
    rw [← hx]
    exact slot_of_chunk (a := 256) (b := 2048) _ r q
  subst ex
  show opOf c fh0 _ = _
  refine congrArg _ (funext fun a => Fin.ext ?_)
  match a with
  | ⟨0, _⟩ => show (i 0).val + 1 * 0 = (i 0).val; omega
  | ⟨1, _⟩ => show o + 1 * r.val = o + r.val; omega
  | ⟨2, _⟩ => show 0 + 1 * q.val = q.val; omega

theorem dma0_apply : kernelRun0_A.sl.dma0 (F := Ideal) c i fh0 (ix2 r q) = opOf c fh0 (ix3 (i 0) ⟨0 + r.val, by omega⟩ q) := by
  unfold kernelRun0_A.sl.dma0
  exact dma_read c i fh0 r q _ 0 (by omega) (k0_off1_eq i) _ _ _

theorem dma0_1_apply : kernelRun0_A.sl.dma0_1 (F := Ideal) c i fh0 (ix2 r q) = opOf c fh0 (ix3 (i 0) ⟨256 + r.val, by omega⟩ q) := by
  unfold kernelRun0_A.sl.dma0_1
  exact dma_read c i fh0 r q _ 256 (by omega) (k0_off2_eq i) _ _ _

theorem dma3_apply : kernelRun0_A.sl.dma3 (F := Ideal) c i fh0 (ix2 r q) = opOf c fh0 (ix3 (i 0) ⟨512 + r.val, by omega⟩ q) := by
  unfold kernelRun0_A.sl.dma3
  exact dma_read c i fh0 r q _ 512 (by omega) (k0_off3_eq i) _ _ _

theorem dma6_apply : kernelRun0_A.sl.dma6 (F := Ideal) c i fh0 (ix2 r q) = opOf c fh0 (ix3 (i 0) ⟨768 + r.val, by omega⟩ q) := by
  unfold kernelRun0_A.sl.dma6
  exact dma_read c i fh0 r q _ 768 (by omega) (k0_off4_eq i) _ _ _

theorem dma9_apply : kernelRun0_A.sl.dma9 (F := Ideal) c i fh0 (ix2 r q) = opOf c fh0 (ix3 (i 0) ⟨1024 + r.val, by omega⟩ q) := by
  unfold kernelRun0_A.sl.dma9
  exact dma_read c i fh0 r q _ 1024 (by omega) (k0_off5_eq i) _ _ _

theorem dma12_apply : kernelRun0_A.sl.dma12 (F := Ideal) c i fh0 (ix2 r q) = opOf c fh0 (ix3 (i 0) ⟨1280 + r.val, by omega⟩ q) := by
  unfold kernelRun0_A.sl.dma12
  exact dma_read c i fh0 r q _ 1280 (by omega) (k0_off6_eq i) _ _ _

theorem dma15_apply : kernelRun0_A.sl.dma15 (F := Ideal) c i fh0 (ix2 r q) = opOf c fh0 (ix3 (i 0) ⟨1536 + r.val, by omega⟩ q) := by
  unfold kernelRun0_A.sl.dma15
  exact dma_read c i fh0 r q _ 1536 (by omega) (k0_off7_eq i) _ _ _

theorem dma18_apply : kernelRun0_A.sl.dma18 (F := Ideal) c i fh0 (ix2 r q) = opOf c fh0 (ix3 (i 0) ⟨1792 + r.val, by omega⟩ q) := by
  unfold kernelRun0_A.sl.dma18
  exact dma_read c i fh0 r q _ 1792 (by omega) (k0_off8_eq i) _ _ _

end

end Cert.GraphFilter.Kern

end
-- ==== Proof.BatchValue.lean ====
/-
  One grid point computes one batch of the filter.

  From what the body loads — the signal block `x0` (1 × 2048 × 8), the weight stack `x1` (5 × 8 × 8), the bias row `x2`
  (1 × 8) and the operator array in main memory — the values it keeps in its scratch buffers are, in order: the
  batch's operator `S` (the resident copy), the signal `X₀` and its shifts `X₁ = Sᵀ X₀, …, X₄ = Sᵀ X₃`, and the
  running sums `T₀`, `T₀ + T₁`, … of the taps `Tₖ = Xₖ W(k)`; the one store into the output's buffer is the last
  sum plus the bias row. Each scratch read-back returns the newest covering store's payload.
-/
import proofs.«102626_j66554813219094_2_alg».proof.Proof.OperatorCopy
import proofs.«102626_j66554813219094_2_alg».proof.Proof.BodyFrameKernelIdeal

set_option maxRecDepth 16384

noncomputable section

namespace Cert.GraphFilter.Kern

open Cert.KernelIdeal Cert.KernelIdeal.Gen Cert.KernelIdeal.Body
open Idealize.ShloMosaic Idealize.ShloMosaic.ValueIdx Idealize.ShloMosaic.Tactic Cert.GraphFilter Cert.Lib.Stage

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords)
  (arg2 : Memref sig .tc .vmem S1x2048x8 .f32) (harg2 : arg2.IsWhole) (arg3 : Memref sig .tc .vmem S5x8x8 .f32) (harg3 : arg3.IsWhole)
  (arg4 : Memref sig .tc .vmem S1x8 .f32) (harg4 : arg4.IsWhole) (arg6 : Memref sig .tc .vmem S2x256x2048 .f32)
  (arg8 : Memref sig .tc .vmem S2048x2048 .bf16) (arg9 : Memref sig .tc .vmem S2048x8 .f32) (arg10 : Memref sig .tc .vmem S2048x8 .f32)
  (x0 : Vec Ideal S1x2048x8 .f32) (x1 : Vec Ideal S5x8x8 .f32) (x2 : Vec Ideal S1x8 .f32) (fh0 : HbBuf0 (F := Ideal) c hbM0_0)
  (G : BufTy.Contents (Elt Ideal) arg6.view.ty)

/-- The batch's operator: entry `(m, n)` of batch `i 0` of the operator array. -/
def opB : FVec Ideal S2048x2048 .bf16 := fun j => opOf c fh0 (ix3 (i 0) (j 0) (j 1))

/-- The batch's signal: the block, flattened. -/
def sigB : FVec Ideal S2048x8 .f32 := shapeCast S2048x8 x0 Facts₀.shapeCasts_S1x2048x8_S2048x8

/-- THE RESIDENT COPY IS THE BATCH'S OPERATOR: the eight stored chunks tile it, and chunk `k` at its own entry `(r, q)`
    is the operator's entry `(256 k + r, q)`. -/
theorem v160_eq : kernelRun0_A.sl.v160 (F := Ideal) c i arg6 arg8 fh0 G = opB c i fh0 := by
  have hcov : ∀ y, ∃ p ∈ kernelRun0_A.sl.HS1_8 (F := Ideal) c i arg6 fh0 G, y ∈ p.1.set :=
    View.cover_of_tiledL (kernelRun0_A.sl.HS1_8 (F := Ideal) c i arg6 fh0 G) S256x2048.size (by sl_kernel_rfl)
  have piece : ∀ (o : ℕ) (ho : o + 256 ≤ 2048) (inb : ∀ a, (![o, 0] : Fin 2 → ℕ) a + S256x2048.size a ≤ S2048x2048.size a)
      (w : (Rect.unit (s := S2048x2048) ![o, 0] S256x2048.size inb).shape.Idx → Elt Ideal .bf16),
      (∀ (r : Fin 256) (q : Fin 2048), w (ix2 r q) = opOf c fh0 (ix3 (i 0) ⟨o + r.val, by omega⟩ q)) →
      ∀ x, w x = opB c i fh0 ((Rect.unit (s := S2048x2048) ![o, 0] S256x2048.size inb).emb x) := by
    intro o ho inb w hw x
    obtain ⟨r, q, rfl⟩ : ∃ (r : Fin 256) (q : Fin 2048), x = ix2 r q := ⟨x 0, x 1, eq_ix2 x⟩
    rw [hw r q]
    unfold opB
    refine congrArg _ (funext fun a => ?_)
    match a with
    | ⟨0, _⟩ => rfl
    | ⟨1, _⟩ => exact Fin.ext (by show o + r.val = o + 1 * r.val; omega)
    | ⟨2, _⟩ => exact Fin.ext (by show q.val = 0 + 1 * q.val; omega)
  unfold kernelRun0_A.sl.v160
  rw [View.readCov_eq_canon_ld _ _ _ hcov, View.ld_unit_zero (S := S2048x2048) hz2]
  funext j
  refine View.canon_apply_of_pieces (opB c i fh0) _ ?_ j (hcov j)
  intro p hp
  unfold kernelRun0_A.sl.HS1_8 at hp
  simp only [List.mem_cons, List.not_mem_nil, or_false] at hp
  rcases hp with rfl | rfl | rfl | rfl | rfl | rfl | rfl | rfl
  · refine piece 1792 (by omega) Facts₀.inb_S2048x2048_S256x2048_1792_0 _ (fun r q => ?_)
    rw [pay11_eq]; unfold kernelRun0_A.sl.r_1; rw [pay10_eq]; dsimp only; rw [chunk_apply, v138_apply, dma18_apply]
  · refine piece 1536 (by omega) Facts₀.inb_S2048x2048_S256x2048_1536_0 _ (fun r q => ?_)
    rw [pay9_eq]; dsimp only; rw [chunk_apply, v126_apply, dma15_apply]
  · refine piece 1280 (by omega) Facts₀.inb_S2048x2048_S256x2048_1280_0 _ (fun r q => ?_)
    rw [pay8_eq]; unfold kernelRun0_A.sl.r; rw [pay7_eq]; dsimp only; rw [chunk_apply, v108_apply, dma12_apply]
  · refine piece 1024 (by omega) Facts₀.inb_S2048x2048_S256x2048_1024_0 _ (fun r q => ?_)
    rw [pay6_eq]; dsimp only; rw [chunk_apply, v90_apply, dma9_apply]
  · refine piece 768 (by omega) Facts₀.inb_S2048x2048_S256x2048_768_0 _ (fun r q => ?_)
    rw [pay5_eq]; dsimp only; rw [chunk_apply, v72_apply, dma6_apply]
  · refine piece 512 (by omega) Facts₀.inb_S2048x2048_S256x2048_512_0 _ (fun r q => ?_)
    rw [pay4_eq]; dsimp only; rw [chunk_apply, v54_apply, dma3_apply]
  · refine piece 256 (by omega) Facts₀.inb_S2048x2048_S256x2048_256_0 _ (fun r q => ?_)
    rw [pay3_eq]; dsimp only; rw [chunk_apply, v36_apply, dma0_1_apply]
  · refine piece 0 (by omega) Facts₀.inb_S2048x2048_S256x2048_0_0 _ (fun r q => ?_)
    rw [pay2_eq]; dsimp only; rw [chunk_apply, v18_apply, dma0_apply]

/-! ## The weights of one tap, as the body loads them -/

/-- The slab of the stack at offset `(k, 0, 0)`, flattened, is tap `k`'s weights. -/
theorem wslab_eq (k : Fin 5) (off : Fin 3 → ℕ) (hoff : off = ![k.val, 0, 0]) (inb : ∀ a, off a + S1x8x8.size a ≤ S5x8x8.size a) :
    slab (View.readAt (Elt Ideal) arg3.view (Rect.unit (s := S5x8x8) off S1x8x8.size inb).toLoadRect (harg3.unread x1)) = wtAt k x1 := by
  subst hoff
  rw [View.readAt_eq_ld, harg3.read_unread]
  funext j
  obtain ⟨f, g, rfl⟩ : ∃ (f g : Fin 8), j = ix2 f g := ⟨j 0, j 1, eq_ix2 j⟩
  show shapeCast S8x8 _ _ (ix2 f g) = _
  rw [shapeCast_1ab_ab_apply]
  show x1 _ = x1 _
  refine congrArg x1 (funext fun a => Fin.ext ?_)
  match a with
  | ⟨0, _⟩ => show k.val + 1 * 0 = k.val; omega
  | ⟨1, _⟩ => show 0 + 1 * f.val = f.val; omega
  | ⟨2, _⟩ => show 0 + 1 * g.val = g.val; omega

theorem w0_eq : slab (View.readAt (Elt Ideal) arg3.view (Rect.unit (s := S5x8x8) ![0, 0, 0] S1x8x8.size Facts₀.inb_S5x8x8_S1x8x8_0_0_0).toLoadRect (harg3.unread x1)) = wtAt 0 x1 :=
  wslab_eq arg3 harg3 x1 0 _ rfl _
theorem w1_eq : slab (View.readAt (Elt Ideal) arg3.view (Rect.unit (s := S5x8x8) ![1, 0, 0] S1x8x8.size Facts₀.inb_S5x8x8_S1x8x8_1_0_0).toLoadRect (harg3.unread x1)) = wtAt 1 x1 :=
  wslab_eq arg3 harg3 x1 1 _ rfl _
theorem w2_eq : slab (View.readAt (Elt Ideal) arg3.view (Rect.unit (s := S5x8x8) ![2, 0, 0] S1x8x8.size Facts₀.inb_S5x8x8_S1x8x8_2_0_0).toLoadRect (harg3.unread x1)) = wtAt 2 x1 :=
  wslab_eq arg3 harg3 x1 2 _ rfl _
theorem w3_eq : slab (View.readAt (Elt Ideal) arg3.view (Rect.unit (s := S5x8x8) ![3, 0, 0] S1x8x8.size Facts₀.inb_S5x8x8_S1x8x8_3_0_0).toLoadRect (harg3.unread x1)) = wtAt 3 x1 :=
  wslab_eq arg3 harg3 x1 3 _ rfl _
theorem w4_eq : slab (View.readAt (Elt Ideal) arg3.view (Rect.unit (s := S5x8x8) ![4, 0, 0] S1x8x8.size Facts₀.inb_S5x8x8_S1x8x8_4_0_0).toLoadRect (harg3.unread x1)) = wtAt 4 x1 :=
  wslab_eq arg3 harg3 x1 4 _ rfl _

/-! ## The signal, its shifts, and the running sum of taps -/

/-- The first two, three, four and all five taps of a batch, added in order. -/
def taps2 (S : FVec Ideal S2048x2048 .bf16) (X : FVec Ideal S2048x8 .f32) (W : Vec Ideal S5x8x8 .f32) : FVec Ideal S2048x8 .f32 :=
  addf (tap2 (wtAt 0 W) X) (tap2 (wtAt 1 W) (shift2 S X))
def taps3 (S : FVec Ideal S2048x2048 .bf16) (X : FVec Ideal S2048x8 .f32) (W : Vec Ideal S5x8x8 .f32) : FVec Ideal S2048x8 .f32 :=
  addf (taps2 S X W) (tap2 (wtAt 2 W) (shift2 S (shift2 S X)))
def taps4 (S : FVec Ideal S2048x2048 .bf16) (X : FVec Ideal S2048x8 .f32) (W : Vec Ideal S5x8x8 .f32) : FVec Ideal S2048x8 .f32 :=
  addf (taps3 S X W) (tap2 (wtAt 3 W) (shift2 S (shift2 S (shift2 S X))))
def taps (S : FVec Ideal S2048x2048 .bf16) (X : FVec Ideal S2048x8 .f32) (W : Vec Ideal S5x8x8 .f32) : FVec Ideal S2048x8 .f32 :=
  addf (taps4 S X W) (tap2 (wtAt 4 W) (shift2 S (shift2 S (shift2 S (shift2 S X)))))

theorem v149_eq : kernelRun0_A.sl.v149 (F := Ideal) c arg2 harg2 arg9 x0 = sigB x0 := by
  unfold kernelRun0_A.sl.v149 kernelRun0_A.sl.HS2_1
  rw [View.readCov_cons_toLoadRect, View.readAt_eq_ld, harg2.read_unread, View.ld_unit_zero (S := S1x2048x8) hz3, pay12_eq]
  rfl

theorem v165_eq : kernelRun0_A.sl.v165 (F := Ideal) c arg2 harg2 arg3 harg3 arg9 arg10 x0 x1 = tap2 (wtAt 0 x1) (sigB x0) := by
  unfold kernelRun0_A.sl.v165 kernelRun0_A.sl.HS3_1
  rw [View.readCov_cons_toLoadRect, v149_eq, pay13_eq, w0_eq]

theorem v175_eq : kernelRun0_A.sl.v175 (F := Ideal) c i arg2 harg2 arg6 arg8 arg9 x0 fh0 G = shift2 (opB c i fh0) (sigB x0) := by
  unfold kernelRun0_A.sl.v175 kernelRun0_A.sl.HS2_2
  rw [View.readCov_cons_toLoadRect, v149_eq, v160_eq, pay15_eq]

theorem r2_eq : kernelRun0_A.sl.r_2 (F := Ideal) c i arg2 harg2 arg6 arg8 arg9 x0 fh0 G = shift2 (opB c i fh0) (sigB x0) := by
  unfold kernelRun0_A.sl.r_2
  rw [v149_eq, v160_eq, pay16_eq]

theorem r3_eq : kernelRun0_A.sl.r_3 (F := Ideal) c arg3 harg3 x1 = wtAt 1 x1 := by
  unfold kernelRun0_A.sl.r_3
  rw [pay17_eq, w1_eq]

theorem v182_eq : kernelRun0_A.sl.v182 (F := Ideal) c i arg2 harg2 arg3 harg3 arg6 arg8 arg9 arg10 x0 x1 fh0 G
    = taps2 (opB c i fh0) (sigB x0) x1 := by
  unfold kernelRun0_A.sl.v182 kernelRun0_A.sl.HS3_2
  rw [View.readCov_cons_toLoadRect, v165_eq, r2_eq, r3_eq]
  unfold kernelRun0_A.sl.cst_142
  rw [pay18_eq]
  rfl

theorem v192_eq : kernelRun0_A.sl.v192 (F := Ideal) c i arg2 harg2 arg6 arg8 arg9 x0 fh0 G
    = shift2 (opB c i fh0) (shift2 (opB c i fh0) (sigB x0)) := by
  unfold kernelRun0_A.sl.v192 kernelRun0_A.sl.HS2_3
  rw [View.readCov_cons_toLoadRect, v175_eq, v160_eq, pay20_eq]

theorem v199_eq : kernelRun0_A.sl.v199 (F := Ideal) c i arg2 harg2 arg3 harg3 arg6 arg8 arg9 arg10 x0 x1 fh0 G
    = taps3 (opB c i fh0) (sigB x0) x1 := by
  unfold kernelRun0_A.sl.v199 kernelRun0_A.sl.HS3_3
  rw [View.readCov_cons_toLoadRect, v175_eq, v160_eq, v182_eq, pay21_eq, w2_eq]
  rfl

theorem r4_eq : kernelRun0_A.sl.r_4 (F := Ideal) c i arg2 harg2 arg6 arg8 arg9 x0 fh0 G
    = shift2 (opB c i fh0) (shift2 (opB c i fh0) (shift2 (opB c i fh0) (sigB x0))) := by
  unfold kernelRun0_A.sl.r_4
  rw [v192_eq, v160_eq, pay22_eq]

theorem v209_eq : kernelRun0_A.sl.v209 (F := Ideal) c i arg2 harg2 arg6 arg8 arg9 x0 fh0 G
    = shift2 (opB c i fh0) (shift2 (opB c i fh0) (shift2 (opB c i fh0) (sigB x0))) := by
  unfold kernelRun0_A.sl.v209 kernelRun0_A.sl.HS2_4
  rw [View.readCov_cons_toLoadRect, v192_eq, v160_eq, pay23_eq]

theorem v216_eq : kernelRun0_A.sl.v216 (F := Ideal) c i arg2 harg2 arg3 harg3 arg6 arg8 arg9 arg10 x0 x1 fh0 G
    = taps4 (opB c i fh0) (sigB x0) x1 := by
  unfold kernelRun0_A.sl.v216 kernelRun0_A.sl.HS3_4
  rw [View.readCov_cons_toLoadRect, r4_eq, v199_eq, pay24_eq, w3_eq]
  rfl

theorem v226_eq : kernelRun0_A.sl.v226 (F := Ideal) c i arg2 harg2 arg3 harg3 arg6 arg8 arg9 arg10 x0 x1 fh0 G
    = taps (opB c i fh0) (sigB x0) x1 := by
  unfold kernelRun0_A.sl.v226 kernelRun0_A.sl.HS3_5
  rw [View.readCov_cons_toLoadRect, v209_eq, v160_eq, v216_eq, pay27_eq, w4_eq]
  rfl

/-- The value the body stores last, at `(n, g)`: the five taps' sum plus the bias row's entry `g`. -/
theorem r5_apply (n : Fin 2048) (g : Fin 8) :
    kernelRun0_A.sl.r_5 (F := Ideal) c i arg2 harg2 arg3 harg3 arg4 harg4 arg6 arg8 arg9 arg10 x0 x1 x2 fh0 G (ix2 n g)
      = taps (opB c i fh0) (sigB x0) x1 (ix2 n g) + x2 (ix2 (0 : Fin 1) g) := by
  unfold kernelRun0_A.sl.r_5
  rw [pay28_apply, v226_eq, View.readAt_eq_ld, harg4.read_unread, View.ld_unit_zero (S := S1x8) hz2]

/-- WHAT THE BODY LEAVES IN THE OUTPUT'S BUFFER, entry by entry. -/
theorem out_apply (arg5 : Memref sig .tc .vmem S1x2048x8 .f32) (harg5 : arg5.IsWhole) (harg6 : arg6.IsWhole) (harg8 : arg8.IsWhole)
    (harg9 : arg9.IsWhole) (harg10 : arg10.IsWhole) (u : Fin 1) (n : Fin 2048) (g : Fin 8) :
    out0_A_3 (F := Ideal) c i arg2 harg2 arg3 harg3 arg4 harg4 arg5 harg5 arg6 harg6 arg8 harg8 arg9 harg9 arg10 harg10 x0 x1 x2 fh0 (ix3 u n g)
      = taps (opB c i fh0) (sigB x0) x1 (ix2 n g) + x2 (ix2 (0 : Fin 1) g) := by
  unfold out0_A_3
  rw [View.read_writes_eq_canon _ _ _ (cover0_A_3 c i arg2 harg2 arg3 harg3 arg4 harg4 arg5 harg5 arg6 harg6 arg8 harg8 arg9 harg9 arg10 harg10 x0 x1 x2 fh0)]
  unfold kernelRun0_A
  dsimp only
  rw [View.canon_unit_zero (S := S1x2048x8) hz3, pay1_apply, r5_apply]

end

end Cert.GraphFilter.Kern

end
-- ==== Proof.FilterValue.lean ====
/-
  From the grid's blocks to the result array.

  Grid point `t` (of eight) works on batch `t`: its signal block is `x(t, ·, ·)`, the operator it copies is `S(t, ·, ·)`,
  the weight stack and the bias row (the bias re-laid as 1 × 8 by the one host operation before the launch) are
  staged whole, and its output block is batch `t` of the result. So what point `t` writes back is block `t` of the
  filter of the four argument arrays; the eight blocks tile the result array; and the run of the whole program ends
  with the result array at `filter x S W bias`, the arguments unchanged.
-/
import proofs.«102626_j66554813219094_2_alg».proof.Proof.BatchValue
import Idealize.ShloMosaic.Lib.StableHlo.Run

set_option maxRecDepth 16384

noncomputable section

namespace Cert.GraphFilter.Kern

open Cert.KernelIdeal Cert.KernelIdeal.Gen Cert.KernelIdeal.Body
open Idealize.ShloMosaic Idealize.ShloMosaic.TcCoe Idealize.ShloMosaic.ValueIdx Idealize.SL.Sem Cert.GraphFilter
open Idealize.ShloMosaic.Pipeline (Dat)

variable (m : (ℓ : Loc nD τ sig) → Buf (Elt Ideal) ℓ) (ρ : Dev nD → PrngReg)

/-- The filter of core `c`'s four argument arrays, as contents of its result array. -/
def result (c : Dev nD) : Buf (Elt Ideal) ((c : Thread nD τ).loc main_v1) :=
  filter (m ((c : Thread nD τ).loc main_arg0)) (m ((c : Thread nD τ).loc main_arg1))
    (m ((c : Thread nD τ).loc main_arg2)) (m ((c : Thread nD τ).loc main_arg3))

/-! ## The printed index maps, decided over the eight points -/

theorem N8 : cfg0.N = 8 := N_0

theorem coord_t : ∀ t : Fin cfg0.N, ((grid0.coords t) 0).val = t.val :=
  (by decide +kernel : ∀ t : Fin grid0.N, ((grid0.coords t) 0).val = t.val)

theorem idx_sig : ∀ t : Fin cfg0.N, win0_0.index t (0 : Fin 3) = t.val ∧ win0_0.index t (1 : Fin 3) = 0 ∧ win0_0.index t (2 : Fin 3) = 0 :=
  (by decide +kernel : ∀ t : Fin grid0.N, _)

theorem idx_wt : ∀ t : Fin cfg0.N, win0_1.index t (0 : Fin 3) = 0 ∧ win0_1.index t (1 : Fin 3) = 0 ∧ win0_1.index t (2 : Fin 3) = 0 :=
  (by decide +kernel : ∀ t : Fin grid0.N, _)

theorem idx_bias : ∀ t : Fin cfg0.N, win0_2.index t (0 : Fin 2) = 0 ∧ win0_2.index t (1 : Fin 2) = 0 :=
  (by decide +kernel : ∀ t : Fin grid0.N, _)

theorem idx_out : ∀ t : Fin cfg0.N, win0_3.index t (0 : Fin 3) = t.val ∧ win0_3.index t (1 : Fin 3) = 0 ∧ win0_3.index t (2 : Fin 3) = 0 :=
  (by decide +kernel : ∀ t : Fin grid0.N, _)

/-- Point `t`'s batch, as a coordinate of the arrays. -/
def batch (t : Fin cfg0.N) : Fin 8 := ⟨t.val, by have h := t.isLt; have e : cfg0.N = 8 := N8; omega⟩

/-! ## What the body finds in its input blocks -/

/-- The signal block of point `t`, flattened, is batch `t` of the signal array. -/
theorem sig_block (c : Dev nD) (t : Fin cfg0.N) :
    sigB (iblk m c 0 t) = sigAt (batch t) (m ((c : Thread nD τ).loc main_arg0)) := by
  funext j
  obtain ⟨n, f, rfl⟩ : ∃ (n : Fin 2048) (f : Fin 8), j = ix2 n f := ⟨j 0, j 1, eq_ix2 j⟩
  unfold sigB
  rw [shapeCast_1ab_ab_apply]
  unfold iblk
  rw [View.read_apply]
  show V m c main_arg0 _ = m ((c : Thread nD τ).loc main_arg0) _
  rw [V_main_arg0]
  obtain ⟨e0, e1, e2⟩ := idx_sig t
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 8 + 1 * f.val = f.val; omega

/-- The weight stack is staged whole. -/
theorem wt_block (c : Dev nD) (t : Fin cfg0.N) : iblk m c 1 t = m ((c : Thread nD τ).loc main_arg2) := by
  funext y
  unfold iblk
  rw [View.read_apply]
  show V m c main_arg2 _ = m ((c : Thread nD τ).loc main_arg2) _
  rw [V_main_arg2]
  obtain ⟨e0, e1, e2⟩ := idx_wt t
  refine congrArg _ (funext fun a => Fin.ext ?_)
  match a with
  | ⟨0, _⟩ => show win0_1.index t (0 : Fin 3) * 5 + 1 * (y 0).val = (y 0).val; omega
  | ⟨1, _⟩ => show win0_1.index t (1 : Fin 3) * 8 + 1 * (y 1).val = (y 1).val; omega
  | ⟨2, _⟩ => show win0_1.index t (2 : Fin 3) * 8 + 1 * (y 2).val = (y 2).val; omega

/-- The bias row the launch stages is the bias vector re-laid as 1 × 8 by the host. -/
theorem bias_row (c : Dev nD) :
    (V m c main_v0 : S1x8.Idx → EReal) = shapeCast S1x8 (m ((c : Thread nD τ).loc main_arg3)) Facts₀.shapeCasts_S8_S1x8 := by
  dsimp only [V, hostOps0]
  after_results
  rfl

/-- The bias block of any point: entry `(0, g)` is the bias of feature `g`. -/
theorem bias_block (c : Dev nD) (t : Fin cfg0.N) (g : Fin 8) :
    iblk m c 2 t (ix2 (0 : Fin 1) g) = m ((c : Thread nD τ).loc main_arg3) (ix1 g) := by
  unfold iblk
  rw [View.read_apply]
  show (V m c main_v0 : S1x8.Idx → EReal) _ = _
  rw [bias_row, ← shapeCast_a_1a_apply (m ((c : Thread nD τ).loc main_arg3)) Facts₀.shapeCasts_S8_S1x8 (0 : Fin 1) g]
  obtain ⟨e0, e1⟩ := idx_bias t
  refine congrArg _ (funext fun a => Fin.ext ?_)
  match a with
  | ⟨0, _⟩ => show win0_2.index t (0 : Fin 2) * 1 + 1 * 0 = 0; omega
  | ⟨1, _⟩ => show win0_2.index t (1 : Fin 2) * 8 + 1 * g.val = g.val; omega

/-- The operator the body copies at point `t` is batch `t` of the operator array. -/
theorem op_block (c : Dev nD) (t : Fin cfg0.N) :
    opB c (grid0.coords t) (V m c main_arg1) = opAt (batch t) (m ((c : Thread nD τ).loc main_arg1)) := by
  funext j
  unfold opB opOf opAt
  rw [V_main_arg1]
  refine congrArg _ (funext fun a => ?_)
  match a with
  | ⟨0, _⟩ => exact Fin.ext (coord_t t)
  | ⟨1, _⟩ => rfl
  | ⟨2, _⟩ => rfl

/-! ## What each point writes back, and the whole array -/

/-- WHAT POINT `t` WRITES BACK is block `t` of the filter of the argument arrays. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold outsAt0
  funext y
  obtain ⟨u, n, g, rfl⟩ : ∃ (u : Fin 1) (n : Fin 2048) (g : Fin 8), y = ix3 u n g := ⟨y 0, y 1, y 2, eq_ix3 y⟩
  have hu : u = 0 := Fin.ext (by omega)
  subst hu
  rw [View.read_apply]
  show out0_A_3 (F := Ideal) c (grid0.coords t) _ _ _ _ _ _ _ _ _ _ _ _ _ _ _ _ (iblk m c 0 t) (iblk m c 1 t) (iblk m c 2 t) (V m c main_arg1) (ix3 0 n g)
    = result m c _
  rw [out_apply, sig_block, wt_block, bias_block, op_block]
  obtain ⟨e0, e1, e2⟩ := idx_out t
  have hidx : ((cfg0.win 3).blk t).view.emb (ix3 (0 : Fin 1) n g) = ix3 (batch t) n g := by
    refine funext fun a => Fin.ext ?_
    match a with
    | ⟨0, _⟩ => show win0_3.index t (0 : Fin 3) * 1 + 1 * 0 = t.val; omega
    | ⟨1, _⟩ => show win0_3.index t (1 : Fin 3) * 2048 + 1 * n.val = n.val; omega
    | ⟨2, _⟩ => show win0_3.index t (2 : Fin 3) * 8 + 1 * g.val = g.val; omega
  rw [hidx]
  exact filter_at (batch t) _ _ _ _ (ix2 n g)

/-- Every entry of the result array is in the block of the point of its batch. -/
theorem cover (c : Dev nD) (i : S8x2048x8.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 8 := (i 2).isLt
  have hN : (i 0).val < cfg0.N := by have e : cfg0.N = 8 := N8; omega
  obtain ⟨t, ht⟩ : ∃ t : Fin cfg0.N, t.val = (i 0).val := ⟨⟨(i 0).val, hN⟩, rfl⟩
  refine ⟨t, flush0_3 t, ?_⟩
  obtain ⟨e0, e1, e2⟩ := idx_out t
  show i ∈ ((View.whole main_v1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 8 ≤ (i 2).val ∧ (i 2).val < win0_3.index t (2 : Fin 3) * 8 + 8
    omega

/-- So the result array ends holding the filter of the argument arrays. -/
theorem final (c : Dev nD) : (dats m 0 c).arrAt 3 cfg0.N = result m c :=
  (dats m 0 c).arrAt_eq_of_cover 3 (result m c) (fun t _ => flushed_eq m c t) (cover c)

/-- THE KERNEL'S RUN, READ: every execution of the idealized program terminates with the result array at the filter
    of the argument arrays, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.GraphFilter.Kern

end
-- ==== Proof.RefFilter.lean ====
/-
  The reference computes the graph filter.

  The reference is a straight line of host operations: five times "cut tap k's 8 × 8 weights out of the stack", four
  times the batched contraction `∑ₘ S(b, m, n) · X(b, m, f)` (the transposed shift), five times the contraction
  `∑_f X(b, n, f) · Wk(f, g)` (a tap), the taps added in order, and the bias spread over batches and nodes and added
  last. Each of these is read at an entry; composed, they are the function `filter` term by term.
-/
import proofs.«102626_j66554813219094_2_alg».proof.Proof.Gen.ReferenceIdeal.Read
import proofs.«102626_j66554813219094_2_alg».proof.Proof.Spec

noncomputable section

namespace Cert.GraphFilter.Ref

open Cert.ReferenceIdeal Cert.ReferenceIdeal.Gen Idealize.ShloMosaic Idealize.ShloMosaic.ValueIdx Cert.GraphFilter
open Cert.ReferenceIdeal.Read

/-- Tap `k`'s weights, cut out of the stack as a 1 × 8 × 8 slab at offset `(k, 0, 0)` and flattened to 8 × 8, are
    the stack's entries `W(k, ·, ·)`. -/
theorem weights_cut (W : FVec Ideal Wt3 .f32) (k : Fin 5) (off : Fin 3 → ℕ) (hoff : off = ![k.val, 0, 0])
    (hs : S5x8x8.Slices off S1x8x8) (hc : S1x8x8.ShapeCasts S8x8) :
    shapeCast S8x8 (extractStridedSlice S1x8x8 off W hs) hc = wtAt k W := by
  subst hoff
  funext j
  obtain ⟨p, q, rfl⟩ : ∃ (p q : Fin 8), j = ix2 p q := ⟨j 0, j 1, eq_ix2 j⟩
  rw [shapeCast_apply _ hc (ix2 p q) (ix3 (0 : Fin 1) p q) (by
    rw [Shape.rowMajor_val_three, Shape.rowMajor_val_two]
    show (0 * 8 + p.val) * 8 + q.val = p.val * 8 + q.val
    omega)]
  exact extractStridedSlice_apply _ W hs (ix3 0 p q) (ix3 k p q) (fun a => match a with
    | ⟨0, _⟩ => by show k.val = k.val + 0; omega
    | ⟨1, _⟩ => by show p.val = 0 + p.val; omega
    | ⟨2, _⟩ => by show q.val = 0 + q.val; omega)

/-- The host's batched contraction of the operator's FIRST node axis with the signal's node axis is the transposed
    shift: entry `(b, n, f)` is `∑ₘ S(b, m, n) · X(b, m, f)`. -/
theorem host_shift (S : FVec Ideal Op3 .f32) (X : FVec Ideal Sig3 .f32) :
    Host.dotGeneral (F := Ideal) dot_S8x2048x2048_S8x2048x8_S8x2048x8_1_1_2_2_0_0 none S X = shift S X := by
  funext i
  refine (val_main_v3_apply X S i).trans ?_
  refine Finset.sum_congr rfl fun m _ => ?_
  have el : lidx_main_v3 i m = ix3 (i 0) m (i 1) :=
    funext fun a => Fin.ext (by match a with | ⟨0, _⟩ => rfl | ⟨1, _⟩ => rfl | ⟨2, _⟩ => rfl)
  have er : ridx_main_v3 i m = ix3 (i 0) m (i 2) :=
    funext fun a => Fin.ext (by match a with | ⟨0, _⟩ => rfl | ⟨1, _⟩ => rfl | ⟨2, _⟩ => rfl)
  rw [el, er]
  rfl

/-- The host's contraction of the signal's feature axis with an 8 × 8 weight matrix's first axis: entry `(b, n, g)`
    is `∑_f X(b, n, f) · Wk(f, g)`. -/
theorem host_tap (X : FVec Ideal Sig3 .f32) (Wk : FVec Ideal Wt2 .f32) (i : Sig3.Idx) :
    Host.dotGeneral (F := Ideal) dot_S8x2048x8_S8x8_S8x2048x8_2_0_01_1_n_n none X Wk i
      = ∑ f : Fin 8, X (ix3 (i 0) (i 1) f) * Wk (ix2 f (i 2)) := by
  simp only [Host.dotGeneral]
  rw [Ideal.dotGeneral_apply, ← Equiv.sum_comp (ValueIdx.contrEquiv1 dot_S8x2048x8_S8x8_S8x2048x8_2_0_01_1_n_n 8 rfl rfl).symm]
  refine Finset.sum_congr rfl fun k _ => ?_
  have hk := ValueIdx.contrEquiv1_symm_val dot_S8x2048x8_S8x8_S8x2048x8_2_0_01_1_n_n 8 rfl rfl k
  have el : dot_S8x2048x8_S8x8_S8x2048x8_2_0_01_1_n_n.lhsIdx i
      ((ValueIdx.contrEquiv1 dot_S8x2048x8_S8x8_S8x2048x8_2_0_01_1_n_n 8 rfl rfl).symm k) = ix3 (i 0) (i 1) k :=
    funext fun a => Fin.ext (by
      match a with
      | ⟨0, _⟩ => exact lhs_main_v2_0 _ _
      | ⟨1, _⟩ => exact lhs_main_v2_1 _ _
      | ⟨2, _⟩ => exact (lhs_main_v2_2 _ _).trans hk)
  have er : dot_S8x2048x8_S8x8_S8x2048x8_2_0_01_1_n_n.rhsIdx i
      ((ValueIdx.contrEquiv1 dot_S8x2048x8_S8x8_S8x2048x8_2_0_01_1_n_n 8 rfl rfl).symm k) = ix2 k (i 2) :=
    funext fun a => Fin.ext (by
      match a with
      | ⟨0, _⟩ => exact (rhs_main_v2_0 _ _).trans hk
      | ⟨1, _⟩ => exact rhs_main_v2_1 _ _)
  rw [el, er]
  rfl

/-- With tap `k`'s weights the host's contraction is the filter's tap `k`. -/
theorem host_tap_at (W : FVec Ideal Wt3 .f32) (k : Fin 5) (X : FVec Ideal Sig3 .f32) :
    Host.dotGeneral (F := Ideal) (φ₂ := .f32) dot_S8x2048x8_S8x8_S8x2048x8_2_0_01_1_n_n none X (wtAt k W) = tap W k X := by
  funext i
  exact host_tap X (wtAt k W) i

/-- The bias spread over batches and nodes reads, at `(b, n, g)`, the bias of feature `g`. -/
theorem bias_spread (b : FVec Ideal (⟨1, ![8]⟩ : Shape) .f32) (i : Sig3.Idx) :
    val_main_v24 (F := Ideal) b i = b (ix1 (i 2)) := by
  rw [val_main_v24_apply, val_main_v23_apply]
  exact congrArg b (funext fun a => Fin.ext (by match a with | ⟨0, _⟩ => rfl))

/-- THE REFERENCE IS THE FILTER: its last operation's value, as a function of the four arguments, is `filter`. -/
theorem ref_eq (x : FVec Ideal Sig3 .f32) (S : FVec Ideal Op3 .f32) (W : FVec Ideal Wt3 .f32) (b : FVec Ideal (⟨1, ![8]⟩ : Shape) .f32) :
    val_main_v25 (F := Ideal) x S W b = filter x S W b := by
  have w0 : val_main_v1 (F := Ideal) W = wtAt 0 W := weights_cut W 0 _ rfl _ _
  have w1 : val_main_v5 (F := Ideal) W = wtAt 1 W := weights_cut W 1 _ rfl _ _
  have w2 : val_main_v10 (F := Ideal) W = wtAt 2 W := weights_cut W 2 _ rfl _ _
  have w3 : val_main_v15 (F := Ideal) W = wtAt 3 W := weights_cut W 3 _ rfl _ _
  have w4 : val_main_v20 (F := Ideal) W = wtAt 4 W := weights_cut W 4 _ rfl _ _
  have s1 : val_main_v3 (F := Ideal) x S = shift S x := host_shift S x
  have s2 : val_main_v8 (F := Ideal) x S = shift S (shift S x) := by
    unfold val_main_v8; rw [s1]; exact host_shift S _
  have s3 : val_main_v13 (F := Ideal) x S = shift S (shift S (shift S x)) := by
    unfold val_main_v13; rw [s2]; exact host_shift S _
  have s4 : val_main_v18 (F := Ideal) x S = shift S (shift S (shift S (shift S x))) := by
    unfold val_main_v18; rw [s3]; exact host_shift S _
  have t0 : val_main_v2 (F := Ideal) x W = tap W 0 x := by
    unfold val_main_v2; rw [w0]; exact host_tap_at W 0 _
  have t1 : val_main_v6 (F := Ideal) x S W = tap W 1 (shift S x) := by
    unfold val_main_v6; rw [w1, s1]; exact host_tap_at W 1 _
  have t2 : val_main_v11 (F := Ideal) x S W = tap W 2 (shift S (shift S x)) := by
    unfold val_main_v11; rw [w2, s2]; exact host_tap_at W 2 _
  have t3 : val_main_v16 (F := Ideal) x S W = tap W 3 (shift S (shift S (shift S x))) := by
    unfold val_main_v16; rw [w3, s3]; exact host_tap_at W 3 _
  have t4 : val_main_v21 (F := Ideal) x S W = tap W 4 (shift S (shift S (shift S (shift S x)))) := by
    unfold val_main_v21; rw [w4, s4]; exact host_tap_at W 4 _
  funext i
  rw [val_main_v25_apply, val_main_v22_apply, val_main_v17_apply, val_main_v12_apply, val_main_v7_apply,
    t0, t1, t2, t3, t4, bias_spread]
  rfl

end Cert.GraphFilter.Ref

end
-- ==== Proof.lean ====
/-
  A graph filter: the kernel and its reference compute the same function over the extended reals.

  The filter takes a signal `x` (8 batches × 2048 nodes × 8 features), a shift operator `S` (8 × 2048 × 2048), five
  8 × 8 weight matrices `W(0..4)` and a bias of 8 entries, and returns

      y(b, n, g) = ((((T₀ + T₁) + T₂) + T₃) + T₄)(b, n, g) + bias(g),
      Tₖ(b, n, g) = ∑_f Xₖ(b, n, f) · W(k, f, g),   X₀ = x,   Xₖ₊₁(b, n, f) = ∑ₘ S(b, m, n) · Xₖ(b, m, f)

  (`Cert.GraphFilter.filter`): each tap multiplies the signal shifted `k` times through the operator's transpose.

  THE REFERENCE is this formula literally: batched contractions for the shifts, contractions with each tap's
  weights, the taps added in the order 0 … 4, the bias added last (`Cert.GraphFilter.Ref.ref_eq`).

  THE KERNEL works one batch per grid point. It copies the batch's operator out of main memory, 256 rows at a time
  through a two-slot staging scratch, into a resident copy (a change of float format on the way: the identity over
  the extended reals); then it takes the same five taps and four shifts as matrix products accumulated into zero,
  adds them in the same order, adds the bias row and stores the block. A matrix product into zero is the plain sum
  of products, the same sum the reference's contraction is, with the factors in the same order; the running sum is
  associated the same way on both sides. So no law of arithmetic is needed beyond `0 + s = s`, and in particular
  nothing about finiteness: the two programs agree at every input, infinite entries included
  (`Cert.GraphFilter.Kern.run`, from the body's run through the blocks to the whole result array).

  THE FRAMES of the two kernel programs come from the body's run (every transfer is waited for, every access is in
  bounds); the reference's frame is its run with the result dropped. The idealization rewrote nothing.
-/
import proofs.«102626_j66554813219094_2_alg».proof.Defs
import proofs.«102626_j66554813219094_2_alg».proof.Proof.Gen.Kernel
import proofs.«102626_j66554813219094_2_alg».proof.Proof.Gen.KernelIdeal
import proofs.«102626_j66554813219094_2_alg».proof.Proof.Gen.ReferenceIdeal
import proofs.«102626_j66554813219094_2_alg».proof.Proof.Gen.Pre_finite_inputs
import proofs.«102626_j66554813219094_2_alg».proof.Proof.Gen.ReferenceIdeal.Run
import proofs.«102626_j66554813219094_2_alg».proof.Proof.Gen.ReferenceIdeal.Read
import proofs.«102626_j66554813219094_2_alg».proof.Proof.BodyFrameKernel
import proofs.«102626_j66554813219094_2_alg».proof.Proof.BodyFrameKernelIdeal
import proofs.«102626_j66554813219094_2_alg».proof.Proof.FilterValue
import proofs.«102626_j66554813219094_2_alg».proof.Proof.RefFilter
import Idealize.ShloMosaic.Adequacy
import Idealize.ShloMosaic.Init

noncomputable section

namespace Cert.Proof

open Idealize.ShloMosaic Idealize.SL.Sem

/-- The word-level kernel program runs without a fault and leaves its arguments unchanged. -/
theorem frame_kernel : Cert.frame_Kernel := fun m ρ _ => Cert.Kernel.Body.frame m ρ

/-- So does the idealized kernel program. -/
theorem frame_kernelIdeal : Cert.frame_KernelIdeal := fun m ρ _ => Cert.KernelIdeal.Body.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the filter of the (agreeing) argument arrays. -/
theorem algebraic : Cert.algebraic_KernelIdeal_ReferenceIdeal := by
  intro m ρ m' ρ' _ hagree
  refine ⟨fun c => Cert.GraphFilter.Kern.result m c, Cert.GraphFilter.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.GraphFilter.Ref.ref_eq, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
